-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20_1)) (v1 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_1) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1024x64 : Shape := ⟨2, ![1024, 64]⟩
abbrev S64 : Shape := ⟨1, ![64]⟩
abbrev S64x1 : Shape := ⟨2, ![64, 1]⟩
abbrev S1 : Shape := ⟨1, ![1]⟩
abbrev S512x32 : Shape := ⟨2, ![512, 32]⟩
abbrev S32 : Shape := ⟨1, ![32]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_arg8 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg4 : FVec F S1 .f32) (main_arg5 : FVec F S512x32 .f32) (main_arg6 : FVec F S32 .f32) (main_arg7 : FVec F S32 .f32) (main_arg8 : FVec F S32 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S512x32 .f32 := Host.absf main_arg5
  let main_cst_8 : FVec F S_ .f32 := constant S_ .f32 0x7F800000#32
  let main_v25 : FVec F S512x32 .f32 := broadcastInDim S512x32 ![] bcast_S_S512x32 main_cst_8
  let main_v26 : IVec S512x32 1 := cmpf .olt main_v24 main_v25
  let main_c_9 : IVec S_ 1 := constantI S_ 1 1#1
  let main_v27 : IVec S_ 1 := (fun x v => Host.reduce IntOp.andi x v reducesTo_S512x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S512x512 .f32) (main_arg1 : FVec F S1024x64 .f32) (main_arg2 : FVec F S64 .f32) (main_arg3 : FVec F S64x1 .f32) (main_arg4 : FVec F S1 .f32) (main_arg5 : FVec F S512x32 .f32) (main_arg6 : FVec F S32 .f32) (main_arg7 : FVec F S32 .f32) (main_arg8 : FVec F S32 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_arg8 main_v13 main_v16
-- ==== Kernel.lean ====
abbrev S512x512 : Shape := ⟨2, ![512, 512]⟩
abbrev S1024x64 : Shape := ⟨2, ![1024, 64]⟩
abbrev S64 : Shape := ⟨1, ![64]⟩
abbrev S64x1 : Shape := ⟨2, ![64, 1]⟩
abbrev S1 : Shape := ⟨1, ![1]⟩
abbrev S512x32 : Shape := ⟨2, ![512, 32]⟩
abbrev S32 : Shape := ⟨1, ![32]⟩
abbrev S512x64 : Shape := ⟨2, ![512, 64]⟩
abbrev S1x64 : Shape := ⟨2, ![1, 64]⟩
abbrev S1x1 : Shape := ⟨2, ![1, 1]⟩
abbrev S1x32 : Shape := ⟨2, ![1, 32]⟩
abbrev S64x512 : Shape := ⟨2, ![64, 512]⟩
abbrev S512x1 : Shape := ⟨2, ![512, 1]⟩
abbrev S32x64 : Shape := ⟨2, ![32, 64]⟩
abbrev S32x512 : Shape := ⟨2, ![32, 512]⟩
abbrev S32x1 : Shape := ⟨2, ![32, 1]⟩
abbrev S1x64x1 : Shape := ⟨3, ![1, 64, 1]⟩
abbrev S1x64x512 : Shape := ⟨3, ![1, 64, 512]⟩
abbrev S32x64x1 : Shape := ⟨3, ![32, 64, 1]⟩
abbrev S32x64x512 : Shape := ⟨3, ![32, 64, 512]⟩
abbrev S_ : Shape := ⟨0, ![]⟩
abbrev S1x512 : Shape := ⟨2, ![1, 512]⟩
abbrev S128x512 : Shape := ⟨2, ![128, 512]⟩
abbrev S128x1 : Shape := ⟨2, ![128, 1]⟩
abbrev S128x32 : Shape := ⟨2, ![128, 32]⟩

abbrev nBuf : Space → Nat
  | .hbm => 33
  | .vmem => 23
  | .smem => 0
  | _ => 0

abbrev bufTy : (tb : Table) → Fin (tcTables nBuf tb) → BufTy
  | .hbm, ⟨0, _⟩ => ⟨S512x512, .f32⟩
  | .hbm, ⟨1, _⟩ => ⟨S1024x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S512x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S512x64, .f32⟩
  | .hbm, ⟨10, _⟩ => ⟨S512x64, .f32⟩
  | .hbm, ⟨11, _⟩ => ⟨S1x64, .f32⟩
  | .hbm, ⟨12, _⟩ => ⟨S1x64, .f32⟩
  | .hbm, ⟨13, _⟩ => ⟨S1x1, .f32⟩
  | .hbm, ⟨14, _⟩ => ⟨S1x32, .f32⟩
  | .hbm, ⟨15, _⟩ => ⟨S1x32, .f32⟩
  | .hbm, ⟨16, _⟩ => ⟨S1x32, .f32⟩
  | .hbm, ⟨17, _⟩ => ⟨S512x512, .bf16⟩
  | .hbm, ⟨18, _⟩ => ⟨S512x64, .bf16⟩
  | .hbm, ⟨19, _⟩ => ⟨S512x64, .f32⟩
  | .hbm, ⟨20, _⟩ => ⟨S512x64, .bf16⟩
  | .hbm, ⟨21, _⟩ => ⟨S512x64, .f32⟩
  | .hbm, ⟨22, _⟩ => ⟨S512x32, .bf16⟩
  | .hbm, ⟨23, _⟩ => ⟨S512x32, .f32⟩
  | .hbm, ⟨24, _⟩ => ⟨S64x512, .f32⟩
  | .hbm, ⟨25, _⟩ => ⟨S512x512, .f32⟩
  | .hbm, ⟨26, _⟩ => ⟨S512x1, .f32⟩
  | .hbm, ⟨27, _⟩ => ⟨S_, .f32⟩
  | .hbm, ⟨28, _⟩ => ⟨S512x1, .f32⟩
  | .hbm, ⟨29, _⟩ => ⟨S512x1, .f32⟩
  | .hbm, ⟨30, _⟩ => ⟨S1x512, .f32⟩
  | .hbm, ⟨31, _⟩ => ⟨S512x512, .f32⟩
  | .hbm, ⟨32, _⟩ => ⟨S512x32, .f32⟩
  | .local _ .vmem, ⟨0, _⟩ => ⟨S64x512, .f32⟩
  | .local _ .vmem, ⟨1, _⟩ => ⟨S32x64, .f32⟩
  | .local _ .vmem, ⟨2, _⟩ => ⟨S32x64, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S32x512, .f32⟩
  | .local _ .vmem, ⟨7, _⟩ => ⟨S32x512, .f32⟩
  | .local _ .vmem, ⟨8, _⟩ => ⟨S32x1, .f32⟩
  | .local _ .vmem, ⟨9, _⟩ => ⟨S32x1, .f32⟩
  | .local _ .vmem, ⟨10, _⟩ => ⟨S128x512, .f32⟩
  | .local _ .vmem, ⟨11, _⟩ => ⟨S128x512, .f32⟩
  | .local _ .vmem, ⟨12, _⟩ => ⟨S128x1, .f32⟩
  | .local _ .vmem, ⟨13, _⟩ => ⟨S128x1, .f32⟩
  | .local _ .vmem, ⟨14, _⟩ => ⟨S1x512, .f32⟩
  | .local _ .vmem, ⟨15, _⟩ => ⟨S512x32, .f32⟩
  | .local _ .vmem, ⟨16, _⟩ => ⟨S1x32, .f32⟩
  | .local _ .vmem, ⟨17, _⟩ => ⟨S1x32, .f32⟩
  | .local _ .vmem, ⟨18, _⟩ => ⟨S1x32, .f32⟩
  | .local _ .vmem, ⟨19, _⟩ => ⟨S128x512, .f32⟩
  | .local _ .vmem, ⟨20, _⟩ => ⟨S128x512, .f32⟩
  | .local _ .vmem, ⟨21, _⟩ => ⟨S128x32, .f32⟩
  | .local _ .vmem, ⟨22, _⟩ => ⟨S128x32, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S1024x64_S512x64_0_0 : S1024x64.Slices ![0, 0] S512x64
  slices_S1024x64_S512x64_512_0 : S1024x64.Slices ![512, 0] S512x64
  shapeCasts_S64_S1x64 : S64.ShapeCasts S1x64
  shapeCasts_S64x1_S1x64 : S64x1.ShapeCasts S1x64
  shapeCasts_S1_S1x1 : S1.ShapeCasts S1x1
  shapeCasts_S32_S1x32 : S32.ShapeCasts S1x32
  bitsLt_bf16_f32 : FTy.bits .bf16 < FTy.bits .f32
  transposes_S512x64_S64x512_1_0 : S512x64.Transposes [1, 0] S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x64x1 : S1x64.ShapeCasts S1x64x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S64x512_S1x64x512 : S64x512.ShapeCasts S1x64x512
  shapeCasts_S32x64_S32x64x1 : S32x64.ShapeCasts S32x64x1
  broadcasts_S1x64x512_S32x64x512 : S1x64x512.Broadcasts S32x64x512
  broadcasts_S32x64x1_S32x64x512 : S32x64x1.Broadcasts S32x64x512
  broadcasts_S1x64x1_S32x64x512 : S1x64x1.Broadcasts S32x64x512
  reduces_S32x64x512_S32x512 : S32x64x512.Reduces [1] S32x512
  iota_S32x512_d0_w32 : S32x512.Iotas .tc 32 [0]
  iota_S32x512_d1_w32 : S32x512.Iotas .tc 32 [1]
  inb_S32x512_S32x512_0_0 : ∀ a, (![0, 0] : Fin 2 → Nat) a + S32x512.size a ≤ S32x512.size a
  h_S32x512 : 0 < S32x512.numel
  reduces_S32x512_S32 : S32x512.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  bcast_S_S512x1 : S_.BroadcastsInDim S512x1 (![] : Fin 0 → Fin S512x1.rank)
  shapeCasts_S512x1_S1x512 : S512x1.ShapeCasts S1x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S128x1_S128x512 : S128x1.Broadcasts S128x512
  broadcasts_S1x512_S128x512 : S1x512.Broadcasts S128x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S128x32_S128x32_0_0 : ∀ a, (![0, 0] : Fin 2 → Nat) a + S128x32.size a ≤ S128x32.size a
  h_S128x32 : 0 < S128x32.numel
  dot_S512x512_S512x64_S512x64_1_0_0_1_n_n_wf : DotDims.WF S512x512 S512x64 S512x64 [1] [0] [0] [1] [] []
  dot_S512x512_S512x32_S512x32_1_0_0_1_n_n_wf : DotDims.WF S512x512 S512x32 S512x32 [1] [0] [0] [1] [] []
  dot_S128x512_S512x32_S128x32_1_0_0_1_n_n_wf : DotDims.WF S128x512 S512x32 S128x32 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S512x64.size a
  hwx0_1 : ∀ i : grid0.Coords, EltTy.bits .f32 = 32 ∨ (Rect.block (s := S512x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x512.size a ≤ S512x512.size a
  hwx0_5 : ∀ i : grid0.Coords, EltTy.bits .f32 = 32 ∨ (Rect.block (s := S512x512) S32x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S512x1.size a
  hwx0_6 : ∀ i : grid0.Coords, EltTy.bits .f32 = 32 ∨ (Rect.block (s := S512x1) S32x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S512x512.size a
  hwx1_0 : ∀ i : grid1.Coords, EltTy.bits .f32 = 32 ∨ (Rect.block (s := S512x512) S128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S512x1.size a
  hwx1_1 : ∀ i : grid1.Coords, EltTy.bits .f32 = 32 ∨ (Rect.block (s := S512x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x32.size a ≤ S512x32.size a
  hwx1_3 : ∀ i : grid1.Coords, EltTy.bits .f32 = 32 ∨ (Rect.block (s := S512x32) S512x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x512.size a ≤ S512x512.size a
  hwx1_7 : ∀ i : grid1.Coords, EltTy.bits .f32 = 32 ∨ (Rect.block (s := S512x512) S128x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x32.size a ≤ S512x32.size a
  hwx1_8 : ∀ i : grid1.Coords, EltTy.bits .f32 = 32 ∨ (Rect.block (s := S512x32) S128x32.size (cc1_transform_8 i) (hinb1_8 i)).WholeWords (EltTy.packing .f32)

variable [Facts₀]

def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf
def dot_S128x512_S512x32_S128x32_1_0_0_1_n_n : DotDims S128x512 S512x32 S128x32 where
  lhsContracting := [1]
  rhsContracting := [0]
  lhsNonContracting := [0]
  rhsNonContracting := [1]
  lhsBatch := []
  rhsBatch := []
  wf := dot_S128x512_S512x32_S128x32_1_0_0_1_n_n_wf

abbrev win0_0 : Pipeline.Window sig grid0 :=
  Pipeline.Window.ofSpec (Memref.whole main_v15) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S32x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S32x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16_0) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20_0) S128x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v20_1) S128x32.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S512x512 : Shape := ⟨2, ![512, 512]⟩
abbrev S1024x64 : Shape := ⟨2, ![1024, 64]⟩
abbrev S64 : Shape := ⟨1, ![64]⟩
abbrev S64x1 : Shape := ⟨2, ![64, 1]⟩
abbrev S1 : Shape := ⟨1, ![1]⟩
abbrev S512x32 : Shape := ⟨2, ![512, 32]⟩
abbrev S32 : Shape := ⟨1, ![32]⟩
abbrev S1x512x512 : Shape := ⟨3, ![1, 512, 512]⟩
abbrev S512x512x512 : Shape := ⟨3, ![512, 512, 512]⟩
abbrev S512x1x512 : Shape := ⟨3, ![512, 1, 512]⟩
abbrev S512x512x1024 : Shape := ⟨3, ![512, 512, 1024]⟩
abbrev S512x512x64 : Shape := ⟨3, ![512, 512, 64]⟩
abbrev S1x1x64 : Shape := ⟨3, ![1, 1, 64]⟩
abbrev S_ : Shape := ⟨0, ![]⟩
abbrev S512x512x1 : Shape := ⟨3, ![512, 512, 1]⟩
abbrev S512 : Shape := ⟨1, ![512]⟩
abbrev S512x1 : Shape := ⟨2, ![512, 1]⟩
abbrev S1x512 : Shape := ⟨2, ![1, 512]⟩
abbrev S1x32 : Shape := ⟨2, ![1, 32]⟩

abbrev nBuf : Space → Nat
  | .hbm => 71
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x64, .f32⟩
  | .hbm, ⟨2, _⟩ => ⟨S64, .f32⟩
  | .hbm, ⟨3, _⟩ => ⟨S64x1, .f32⟩
  | .hbm, ⟨4, _⟩ => ⟨S1, .f32⟩
  | .hbm, ⟨5, _⟩ => ⟨S512x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S1x512x512, .f32⟩
  | .hbm, ⟨10, _⟩ => ⟨S512x512x512, .f32⟩
  | .hbm, ⟨11, _⟩ => ⟨S512x1x512, .f32⟩
  | .hbm, ⟨12, _⟩ => ⟨S512x512x512, .f32⟩
  | .hbm, ⟨13, _⟩ => ⟨S512x512x1024, .f32⟩
  | .hbm, ⟨14, _⟩ => ⟨S512x512x64, .f32⟩
  | .hbm, ⟨15, _⟩ => ⟨S1x1x64, .f32⟩
  | .hbm, ⟨16, _⟩ => ⟨S512x512x64, .f32⟩
  | .hbm, ⟨17, _⟩ => ⟨S512x512x64, .f32⟩
  | .hbm, ⟨18, _⟩ => ⟨S_, .f32⟩
  | .hbm, ⟨19, _⟩ => ⟨S512x512x64, .f32⟩
  | .hbm, ⟨20, _⟩ => ⟨S512x512x64, .f32⟩
  | .hbm, ⟨21, _⟩ => ⟨S512x512x1, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .i32⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .f32⟩
  | .hbm, ⟨41, _⟩ => ⟨S512x512, .f32⟩
  | .hbm, ⟨42, _⟩ => ⟨S_, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S512x1, .f32⟩
  | .hbm, ⟨49, _⟩ => ⟨S1x512, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x32, .f32⟩
  | .hbm, ⟨55, _⟩ => ⟨S512x32, .f32⟩
  | .hbm, ⟨56, _⟩ => ⟨S1x32, .f32⟩
  | .hbm, ⟨57, _⟩ => ⟨S512x32, .f32⟩
  | .hbm, ⟨58, _⟩ => ⟨S512x32, .f32⟩
  | .hbm, ⟨59, _⟩ => ⟨S1x32, .f32⟩
  | .hbm, ⟨60, _⟩ => ⟨S512x32, .f32⟩
  | .hbm, ⟨61, _⟩ => ⟨S512x32, .f32⟩
  | .hbm, ⟨62, _⟩ => ⟨S_, .f32⟩
  | .hbm, ⟨63, _⟩ => ⟨S512x32, .f32⟩
  | .hbm, ⟨64, _⟩ => ⟨S512x32, .f32⟩
  | .hbm, ⟨65, _⟩ => ⟨S1x32, .f32⟩
  | .hbm, ⟨66, _⟩ => ⟨S512x32, .f32⟩
  | .hbm, ⟨67, _⟩ => ⟨S512x32, .f32⟩
  | .hbm, ⟨68, _⟩ => ⟨S_, .f32⟩
  | .hbm, ⟨69, _⟩ => ⟨S512x32, .f32⟩
  | .hbm, ⟨70, _⟩ => ⟨S512x32, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call1_cst : Ref sig .tc := ⟨.hbm, 68, rfl⟩
abbrev main_call1_v0 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  bcast_S512x512_S1x512x512_1_2 : S512x512.BroadcastsInDim S1x512x512 (![1, 2] : Fin 2 → Fin S1x512x512.rank)
  bcast_S1x512x512_S512x512x512_0_1_2 : S1x512x512.BroadcastsInDim S512x512x512 (![0, 1, 2] : Fin 3 → Fin S512x512x512.rank)
  bcast_S512x512_S512x1x512_0_2 : S512x512.BroadcastsInDim S512x1x512 (![0, 2] : Fin 2 → Fin S512x1x512.rank)
  bcast_S512x1x512_S512x512x512_0_1_2 : S512x1x512.BroadcastsInDim S512x512x512 (![0, 1, 2] : Fin 3 → Fin S512x512x512.rank)
  concatenates_S512x512x512_S512x512x512_S512x512x1024_d2 : Shape.Concatenates [S512x512x512, S512x512x512] S512x512x1024 2
  bcast_S64_S1x1x64_2 : S64.BroadcastsInDim S1x1x64 (![2] : Fin 1 → Fin S1x1x64.rank)
  bcast_S1x1x64_S512x512x64_0_1_2 : S1x1x64.BroadcastsInDim S512x512x64 (![0, 1, 2] : Fin 3 → Fin S512x512x64.rank)
  bcast_S_S512x512x64 : S_.BroadcastsInDim S512x512x64 (![] : Fin 0 → Fin S512x512x64.rank)
  shapeCasts_S512x512x1_S512x512 : S512x512x1.ShapeCasts S512x512
  shapeCasts_S1_S_ : S1.ShapeCasts S_
  bcast_S_S512x512 : S_.BroadcastsInDim S512x512 (![] : Fin 0 → Fin S512x512.rank)
  reducesTo_S512x512_S512_d1 : S512x512.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  dot_S512x512x1024_S1024x64_S512x512x64_2_0_01_1_n_n_wf : DotDims.WF S512x512x1024 S1024x64 S512x512x64 [2] [0] [0, 1] [1] [] []
  dot_S512x512x64_S64x1_S512x512x1_2_0_01_1_n_n_wf : DotDims.WF S512x512x64 S64x1 S512x512x1 [2] [0] [0, 1] [1] [] []
  dot_S512x512_S512x32_S512x32_1_0_0_1_n_n_wf : DotDims.WF S512x512 S512x32 S512x32 [1] [0] [0] [1] [] []

variable [Facts₀]

def dot_S512x512x1024_S1024x64_S512x512x64_2_0_01_1_n_n : DotDims S512x512x1024 S1024x64 S512x512x64 where
  lhsContracting := [2]
  rhsContracting := [0]
  lhsNonContracting := [0, 1]
  rhsNonContracting := [1]
  lhsBatch := []
  rhsBatch := []
  wf := dot_S512x512x1024_S1024x64_S512x512x64_2_0_01_1_n_n_wf
def dot_S512x512x64_S64x1_S512x512x1_2_0_01_1_n_n : DotDims S512x512x64 S64x1 S512x512x1 where
  lhsContracting := [2]
  rhsContracting := [0]
  lhsNonContracting := [0, 1]
  rhsNonContracting := [1]
  lhsBatch := []
  rhsBatch := []
  wf := dot_S512x512x64_S64x1_S512x512x1_2_0_01_1_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf

class Facts : Prop extends Facts₀ where

variable [Facts]
-- ==== Proof.KernelRun.lean ====
/- The kernel program's run with its two results named. The program is four segments: host operations, the adjacency
   kernel over 16 row tiles, host operations (the reciprocal of the degree vector, as a column and as a row), the
   normalisation-and-layer kernel over 4 row tiles. Every weakly fair execution ends with each unscoped buffer at the
   contents the last segment boundary names; read at the two result buffers this is the second kernel's two output
   arrays after all its write-backs, and at the nine argument buffers the launch contents. -/
import proofs.«138939_j55310588838066_2_alg».proof.Proof.KernelIdealFrame

-- membership in a rectangle of production extents (`View.cover_of_tiled`): the elaborator's structural look
-- recurses once per coordinate of the long axes
set_option maxRecDepth 16384

noncomputable section

namespace Cert.KernelIdeal.RunValue

open Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- The run: both results at the last boundary's contents, the arguments as launched. -/
theorem run_values : θ_run defs (onTc (τ := τ) (main (F := F))) ⟨m, fun _ => 0, ρ⟩ (fun r => ∀ c : Dev nD,
      r.2.mem ((c.tc : Thread nD τ).loc main_v20_1) = W4 m ρ c (Proc.devRef .tc main_v20_1)
      ∧ r.2.mem ((c.tc : Thread nD τ).loc main_v20_0) = W4 m ρ c (Proc.devRef .tc main_v20_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20_1 (by decide)), h c _ (mem_uc main_v20_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.RunValue

end
-- ==== Proof.Spec.lean ====
/- The mathematics of the certificate, over the extended reals and free of both programs.

   A set of 512 nodes carries features x (512 × 512). A relation network scores every ordered pair (i, j) from the
   concatenation [x j, x i]: a first layer W1 (1024 × 64) with bias b1 and a rectifier, then a second layer w2 (64 × 1) with
   bias b2 and the logistic function. Since the first 512 rows of W1 only meet x j and the last 512 only x i, the first
   layer is the sum  fa j h + fb i h  of two 512-term products. The adjacency is  adj i j = [i = j] + logistic (logit i j),
   its degree vector  deg i = sqrt (∑ j, adj i j + 1),  and the normalised adjacency divides adj i j by deg i · deg j.
   One graph-convolution layer follows:  (anorm · (x · G) + g) ⊙ γ · c + β,  rectified.

   Every logistic value is a real in [0, 1] whatever its argument (at -∞ it is 0, at +∞ it is 1), so every degree is a
   positive real, and for positive reals  a / (d · e) = a · (1/d) · (1/e)  at every extended real a: the one law that joins
   the two arrangements of the normalisation. No finiteness of the inputs is needed for it. -/
import Idealize.ShloMosaic.PureOps.Ideal
import Idealize.ShloMosaic.PureOps.Ideal.Laws
import Idealize.ShloMosaic.Lib.ValueIdx

noncomputable section

open scoped BigOperators

namespace Cert.GraphSpec

open Idealize.ShloMosaic Idealize.ShloMosaic.ValueIdx

/-! ## Extended reals that are non-negative reals -/

/-- "x is a non-negative real". -/
def IsNN (x : EReal) : Prop := ∃ r : ℝ, 0 ≤ r ∧ x = (r : EReal)

theorem isNN_zero : IsNN 0 := ⟨0, le_refl _, by simp⟩
theorem isNN_one : IsNN 1 := ⟨1, zero_le_one, by simp⟩

theorem IsNN.add {x y : EReal} (hx : IsNN x) (hy : IsNN y) : IsNN (x + y) := by
  obtain ⟨r, hr, rfl⟩ := hx
  obtain ⟨s, hs, rfl⟩ := hy
  exact ⟨r + s, add_nonneg hr hs, (EReal.coe_add r s).symm⟩

theorem isNN_sum {ι : Type*} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- The logistic function takes every extended real to a real in [0, 1]; here only "non-negative real" is kept. -/
theorem isNN_logistic (x : EReal) : IsNN (Ideal.logistic x) := by
  induction x using EReal.rec with
  | bot => rw [Ideal.logistic_bot]; exact isNN_zero
  | coe r => rw [Ideal.logistic_coe]; exact ⟨_, inv_nonneg.mpr (by positivity), rfl⟩
  | top => rw [Ideal.logistic_top]; exact isNN_one

/-- The square root of a non-negative real plus one is a positive real. -/
theorem sqrt_add_one_pos {s : EReal} (hs : IsNN s) : ∃ d : ℝ, 0 < d ∧ Ideal.sqrt (s + 1) = (d : EReal) := by
  obtain ⟨r, hr, rfl⟩ := hs
  refine ⟨Real.sqrt (r + 1), Real.sqrt_pos.mpr (by linarith), ?_⟩
  have : ((r : EReal) + 1) = ((r + 1 : ℝ) : EReal) := by rw [EReal.coe_add, EReal.coe_one]
  rw [this, Ideal.sqrt_coe, if_neg (by linarith)]

/-- Dividing by the product of two non-zero reals is multiplying by the two reciprocals, at every extended real. -/
theorem div_mul_eq_mul_inv_mul_inv (a : EReal) {d e : ℝ} (hd : d ≠ 0) (he : e ≠ 0) :
    Ideal.div a ((d : EReal) * (e : EReal)) = a * Ideal.div 1 (d : EReal) * Ideal.div 1 (e : EReal) := by
  rw [← EReal.coe_mul, Ideal.div_coe (mul_ne_zero hd he), Ideal.div_coe hd, Ideal.div_coe he, one_mul, one_mul, mul_assoc,
    ← EReal.coe_mul]
  congr 2
  field_simp

/-- The f32 pattern of 1.0 is the real 1. -/
theorem ofBits_one_f32 : Ideal.ofBits .f32 0x3F800000#32 = 1 := by
  simp [Ideal.ofBits, Ideal.ieee, -EReal.coe_mul]; norm_num

/-- A sum over 1024 terms is the sum over the first 512 plus the sum over the last 512. -/
theorem sum_split_1024 {M : Type*} [AddCommMonoid M] (f : Fin 1024 → M) :
    ∑ k : Fin 1024, f k = ∑ k : Fin 512, f ⟨k.val, by omega⟩ + ∑ k : Fin 512, f ⟨512 + k.val, by omega⟩ :=
  Fin.sum_univ_add (a := 512) (b := 512) f

/-! ## The specification -/

abbrev T512x512 : Shape := ⟨2, ![512, 512]⟩
abbrev T1024x64 : Shape := ⟨2, ![1024, 64]⟩
abbrev T64 : Shape := ⟨1, ![64]⟩
abbrev T64x1 : Shape := ⟨2, ![64, 1]⟩
abbrev T1 : Shape := ⟨1, ![1]⟩
abbrev T512x32 : Shape := ⟨2, ![512, 32]⟩
abbrev T32 : Shape := ⟨1, ![32]⟩

/-- Row k of the first half of W1, and row k of its second half. -/
abbrev lo (k : Fin 512) : Fin 1024 := ⟨k.val, by omega⟩
abbrev hi (k : Fin 512) : Fin 1024 := ⟨512 + k.val, by omega⟩

/-- The batch-norm scale both programs carry as the same f32 pattern; its value is never needed. -/
abbrev bnScale : EReal := Ideal.ofBits .f32 0x3F7FFFAC#32

section
variable (x : FVec Ideal T512x512 .f32) (w1 : FVec Ideal T1024x64 .f32) (b1 : FVec Ideal T64 .f32)
  (w2 : FVec Ideal T64x1 .f32) (b2 : FVec Ideal T1 .f32) (gw : FVec Ideal T512x32 .f32)
  (gb γ β : FVec Ideal T32 .f32)

/-- x j · (first half of W1), column h. -/
def fa (j : Fin 512) (h : Fin 64) : EReal := ∑ k : Fin 512, x (ix2 j k) * w1 (ix2 (lo k) h)
/-- x i · (second half of W1), column h. -/
def fb (i : Fin 512) (h : Fin 64) : EReal := ∑ k : Fin 512, x (ix2 i k) * w1 (ix2 (hi k) h)
/-- The relation network's score of the pair (i, j) before the logistic function. -/
def logit (i j : Fin 512) : EReal :=
  (∑ h : Fin 64, max (fa x w1 j h + fb x w1 i h + b1 (ix1 h)) 0 * w2 (ix2 h 0)) + b2 (ix1 0)
/-- The adjacency with self-loops. -/
def adj (i j : Fin 512) : EReal := (if i = j then (1 : EReal) else 0) + Ideal.logistic (logit x w1 b1 w2 b2 i j)
/-- The degree vector. -/
def deg (i : Fin 512) : EReal := Ideal.sqrt ((∑ j : Fin 512, adj x w1 b1 w2 b2 i j) + 1)
/-- Its reciprocal. -/
def inv (i : Fin 512) : EReal := Ideal.div 1 (deg x w1 b1 w2 b2 i)
/-- The normalised adjacency, as a product with the two reciprocals. -/
def anorm (i j : Fin 512) : EReal := adj x w1 b1 w2 b2 i j * inv x w1 b1 w2 b2 i * inv x w1 b1 w2 b2 j
/-- x · G. -/
def fg (j : Fin 512) (o : Fin 32) : EReal := ∑ l : Fin 512, x (ix2 j l) * gw (ix2 l o)
/-- The layer's output. -/
def layer (i : Fin 512) (o : Fin 32) : EReal :=
  max (γ (ix1 o) * ((∑ j : Fin 512, anorm x w1 b1 w2 b2 i j * fg x gw j o) + gb (ix1 o)) * bnScale + β (ix1 o)) 0

/-- The two results as arrays. -/
def adjOut : FVec Ideal T512x512 .f32 := fun p => anorm x w1 b1 w2 b2 (p 0) (p 1)
def layerOut : FVec Ideal T512x32 .f32 := fun p => layer x w1 b1 w2 b2 gw gb γ β (p 0) (p 1)

theorem isNN_adj (i j : Fin 512) : IsNN (adj x w1 b1 w2 b2 i j) := by
  unfold adj
  refine IsNN.add ?_ (isNN_logistic _)
  split
  · exact isNN_one
  · exact isNN_zero

/-- Every degree is a positive real. -/
theorem deg_pos (i : Fin 512) : ∃ d : ℝ, 0 < d ∧ deg x w1 b1 w2 b2 i = (d : EReal) :=
  sqrt_add_one_pos (isNN_sum _ _ fun j _ => isNN_adj x w1 b1 w2 b2 i j)

/-- The normalised adjacency is the quotient by the product of the two degrees. -/
theorem anorm_eq_div (i j : Fin 512) :
    anorm x w1 b1 w2 b2 i j = Ideal.div (adj x w1 b1 w2 b2 i j) (deg x w1 b1 w2 b2 i * deg x w1 b1 w2 b2 j) := by
  obtain ⟨d, hd, hdi⟩ := deg_pos x w1 b1 w2 b2 i
  obtain ⟨e, he, hej⟩ := deg_pos x w1 b1 w2 b2 j
  unfold anorm inv
  rw [hdi, hej]
  exact (div_mul_eq_mul_inv_mul_inv _ hd.ne' he.ne').symm

end

end Cert.GraphSpec

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibRowOps.lean ====
/-
  ROW AND COLUMN SPREADS OF SMALL ARRAYS, AND THE SWAP OF A MATRIX'S AXES, READ AT AN INDEX.

  A bias vector `[c]` added to every row of an `[a, c]` array is first recast to `[1, c]` and then spread over
  the rows; the device spells this with a shape cast and a broadcast, the host with two `broadcast_in_dim`s. Either
  way the entry at `(p, q)` is the vector's entry `q`. A column `[a, 1]` spread over the columns of `[a, b]` by the
  host reads the column's entry of row `p`. The transpose with permutation `[1, 0]` of an `[a, b]` array reads, at
  `(p, q)`, the entry `(q, p)`.
-/
import Idealize.ShloMosaic.Lib.ValueIdx
import Idealize.ShloMosaic.Lib.Pipeline.Value

noncomputable section

namespace Cert.RowOps

open Idealize.ShloMosaic Idealize.ShloMosaic.ValueIdx

/-- The transpose `[a, b] → [b, a]` reads, at `(p, q)`, the entry `(q, p)`. -/
theorem transpose_swap_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun d => match d with
    | ⟨0, _⟩ => rfl
    | ⟨1, _⟩ => rfl

/-- On the device: a vector `[c]` recast to `[1, c]` and spread over the rows of `[a, c]` reads, at `(p, q)`, its entry `q`. -/
theorem rowSpread_apply {α : Type} {a c : ℕ} (v : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (p : Fin a) (q : Fin c) :
    broadcastTo ⟨2, ![a, c]⟩ (shapeCast ⟨2, ![1, c]⟩ v h1) h2 (ix2 p q) = v (ix1 q) := by
  rw [broadcastTo_apply (shapeCast ⟨2, ![1, c]⟩ v h1) h2 (ix2 p q) (ix2 (0 : Fin 1) q) (fun d => match d with
    | ⟨0, _⟩ => by show (0 : ℕ) = if (1 : ℕ) = 1 then 0 else p.val; rw [if_pos rfl]
    | ⟨1, _⟩ => by
        show q.val = if c = 1 then 0 else q.val
        split
        · have := q.isLt; omega
        · rfl)]
  refine (shapeCast_addUnit_apply ![c] v h1 (ix2 (0 : Fin 1) q)).trans (congrArg v ?_)
  funext d
  match d with
  | ⟨0, _⟩ => rfl

/-- On the host: a vector `[c]` placed as the one row of `[1, c]` and spread over the rows of `[a, c]` reads, at
    `(p, q)`, its entry `q`. -/
theorem hostRowSpread_apply {α : Type} {a c : ℕ} (v : (⟨1, ![c]⟩ : Shape).Idx → α)
    (h1 : (⟨1, ![c]⟩ : Shape).BroadcastsInDim ⟨2, ![1, c]⟩ ![1])
    (h2 : (⟨2, ![1, c]⟩ : Shape).BroadcastsInDim ⟨2, ![a, c]⟩ ![0, 1]) (p : Fin a) (q : Fin c) :
    broadcastInDim ⟨2, ![a, c]⟩ ![0, 1] h2 (broadcastInDim ⟨2, ![1, c]⟩ ![1] h1 v) (ix2 p q) = v (ix1 q) := by
  rw [broadcastInDim_apply ![0, 1] h2 _ (ix2 p q) (ix2 (0 : Fin 1) q) (fun d => match d with
    | ⟨0, _⟩ => by show (0 : ℕ) = if (1 : ℕ) = 1 then 0 else p.val; rw [if_pos rfl]
    | ⟨1, _⟩ => by
        show q.val = if c = 1 then 0 else q.val
        split
        · have := q.isLt; omega
        · rfl)]
  exact broadcastInDim_apply ![1] h1 v (ix2 (0 : Fin 1) q) (ix1 q) (fun d => match d with
    | ⟨0, _⟩ => by
        show q.val = if c = 1 then 0 else q.val
        split
        · have := q.isLt; omega
        · rfl)

/-- On the host: a column `[a, 1]` spread over the columns of `[a, b]` reads, at `(p, q)`, the column's entry of row `p`. -/
theorem hostColSpread_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) :=
  broadcastInDim_apply ![0, 1] h v (ix2 p q) (ix2 p (0 : Fin 1)) (fun d => match d with
    | ⟨0, _⟩ => by
        show p.val = if a = 1 then 0 else p.val
        split
        · have := p.isLt; omega
        · rfl
    | ⟨1, _⟩ => by show (0 : ℕ) = if (1 : ℕ) = 1 then 0 else q.val; rw [if_pos rfl])

end Cert.RowOps

end
-- ==== Proof.HostStages.lean ====
/- What the host operations around the two kernels leave in the buffers the kernels read, entry by entry.
   Before the adjacency kernel: the two halves of W1 sliced apart, x times each half (x · W1a transposed to 64 × 512,
   x · W1b as 512 × 64), x · G, and the bias and weight vectors recast as one-row matrices. Between the kernels: the
   reciprocal of the degree column, and the same numbers recast as a row. The changes of float format on the way into
   each product are the identity over the extended reals. -/
import proofs.«138939_j55310588838066_2_alg».proof.Proof.KernelIdealFrame
import proofs.«138939_j55310588838066_2_alg».proof.Proof.Spec
import proofs.«138939_j55310588838066_2_alg».proof.Proof.LibMatOps
import proofs.«138939_j55310588838066_2_alg».proof.Proof.LibRowOps
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stages

open Idealize.ShloMosaic Idealize.ShloMosaic.TcCoe Idealize.ShloMosaic.ValueIdx Idealize.SL.Sem
open Cert.KernelIdeal Cert.KernelIdeal.Gen Cert.KernelIdeal.GenP Cert.GraphSpec

variable (m : (ℓ : Loc nD τ sig) → Buf (Elt Ideal) ℓ) (ρ : Dev nD → PrngReg)

/-- The nine argument arrays as launched. -/
abbrev aX (c : Dev nD) : FVec Ideal S512x512 .f32 := m ((c.tc : Thread nD τ).loc main_arg0)
abbrev aW1 (c : Dev nD) : FVec Ideal S1024x64 .f32 := m ((c.tc : Thread nD τ).loc main_arg1)
abbrev aB1 (c : Dev nD) : FVec Ideal S64 .f32 := m ((c.tc : Thread nD τ).loc main_arg2)
abbrev aW2 (c : Dev nD) : FVec Ideal S64x1 .f32 := m ((c.tc : Thread nD τ).loc main_arg3)
abbrev aB2 (c : Dev nD) : FVec Ideal S1 .f32 := m ((c.tc : Thread nD τ).loc main_arg4)
abbrev aGW (c : Dev nD) : FVec Ideal S512x32 .f32 := m ((c.tc : Thread nD τ).loc main_arg5)
abbrev aGB (c : Dev nD) : FVec Ideal S32 .f32 := m ((c.tc : Thread nD τ).loc main_arg6)
abbrev aGa (c : Dev nD) : FVec Ideal S32 .f32 := m ((c.tc : Thread nD τ).loc main_arg7)
abbrev aBe (c : Dev nD) : FVec Ideal S32 .f32 := m ((c.tc : Thread nD τ).loc main_arg8)

/-- The two slices of W1: rows k and 512 + k. -/
theorem slice_lo (w : FVec Ideal S1024x64 .f32) (k : Fin 512) (h : Fin 64) :
    extractStridedSlice S512x64 ![0, 0] w slices_S1024x64_S512x64_0_0 (ix2 k h) = w (ix2 (lo k) h) :=
  extractStridedSlice_apply _ _ _ (ix2 k h) (ix2 (lo k) h) (fun a => match a with
    | ⟨0, _⟩ => by show k.val = 0 + k.val; omega
    | ⟨1, _⟩ => by show h.val = 0 + h.val; omega)

theorem slice_hi (w : FVec Ideal S1024x64 .f32) (k : Fin 512) (h : Fin 64) :
    extractStridedSlice S512x64 ![512, 0] w slices_S1024x64_S512x64_512_0 (ix2 k h) = w (ix2 (hi k) h) :=
  extractStridedSlice_apply _ _ _ (ix2 k h) (ix2 (hi k) h) (fun a => match a with
    | ⟨0, _⟩ => by show 512 + k.val = 512 + k.val; rfl
    | ⟨1, _⟩ => by show h.val = 0 + h.val; omega)

/-- x · W1a, transposed: entry (h, q) is fa q h. -/
theorem V1_v15 (c : Dev nD) (h : Fin 64) (q : Fin 512) :
    (V1 m ρ c main_v15 : S64x512.Idx → EReal) (ix2 h q) = fa (aX m c) (aW1 m c) q h := by
  show (StableHlo.after hostOps0 (W0 m ρ c) (Proc.devRef .tc main_v15) : S64x512.Idx → EReal) (ix2 h q) = _
  after_results
  rw [Cert.RowOps.transpose_swap_apply]
  simp only [Host.dotGeneral]
  show FloatOps.dotGeneral (Cert.MatOps.plainDot 512 512 64 _) none HostSchedule.single _ _ (ix2 q h) = _
  rw [Cert.MatOps.dotGeneral_plain_apply]
  unfold fa
  refine Finset.sum_congr rfl fun k _ => ?_
  exact congrArg (_ * ·) (slice_lo _ k h)

/-- x · W1b: entry (p, h) is fb p h. -/
theorem V1_v12 (c : Dev nD) (p : Fin 512) (h : Fin 64) :
    (V1 m ρ c main_v12 : S512x64.Idx → EReal) (ix2 p h) = fb (aX m c) (aW1 m c) p h := by
  show (StableHlo.after hostOps0 (W0 m ρ c) (Proc.devRef .tc main_v12) : S512x64.Idx → EReal) (ix2 p h) = _
  after_results
  simp only [Host.dotGeneral]
  show FloatOps.dotGeneral (Cert.MatOps.plainDot 512 512 64 _) none HostSchedule.single _ _ (ix2 p h) = _
  rw [Cert.MatOps.dotGeneral_plain_apply]
  unfold fb
  refine Finset.sum_congr rfl fun k _ => ?_
  exact congrArg (_ * ·) (slice_hi _ k h)

/-- x · G. -/
theorem V1_v14 (c : Dev nD) (j : Fin 512) (o : Fin 32) :
    (V1 m ρ c main_v14 : S512x32.Idx → EReal) (ix2 j o) = fg (aX m c) (aGW m c) j o := by
  show (StableHlo.after hostOps0 (W0 m ρ c) (Proc.devRef .tc main_v14) : S512x32.Idx → EReal) (ix2 j o) = _
  after_results
  simp only [Host.dotGeneral]
  exact (Cert.MatOps.dotGeneral_plain_apply (M := 512) (K := 512) (C := 32) _ none _ _ _ j o)

/-- A vector recast as a one-row matrix reads its entry. -/
theorem row_cast {n : Nat} (v : (⟨1, ![n]⟩ : Shape).Idx → EReal) (hc : (⟨1, ![n]⟩ : Shape).ShapeCasts ⟨2, ![1, n]⟩) (o : Fin n) :
    shapeCast ⟨2, ![1, n]⟩ v hc (ix2 (0 : Fin 1) o) = v (ix1 o) := by
  refine (shapeCast_addUnit_apply ![n] v hc (ix2 (0 : Fin 1) o)).trans (congrArg v ?_)
  funext d
  match d with
  | ⟨0, _⟩ => rfl

/-- b1 as a row. -/
theorem V1_v2 (c : Dev nD) (h : Fin 64) :
    (V1 m ρ c main_v2 : S1x64.Idx → EReal) (ix2 (0 : Fin 1) h) = aB1 m c (ix1 h) := by
  show (StableHlo.after hostOps0 (W0 m ρ c) (Proc.devRef .tc main_v2) : S1x64.Idx → EReal) (ix2 (0 : Fin 1) h) = _
  after_results
  exact row_cast _ _ h

/-- w2 (a 64 × 1 column) as a row. -/
theorem V1_v3 (c : Dev nD) (h : Fin 64) :
    (V1 m ρ c main_v3 : S1x64.Idx → EReal) (ix2 (0 : Fin 1) h) = aW2 m c (ix2 h (0 : Fin 1)) := by
  show (StableHlo.after hostOps0 (W0 m ρ c) (Proc.devRef .tc main_v3) : S1x64.Idx → EReal) (ix2 (0 : Fin 1) h) = _
  after_results
  refine shapeCast_apply _ _ (ix2 (0 : Fin 1) h) (ix2 h (0 : Fin 1)) ?_
  rw [Shape.rowMajor_val_two, Shape.rowMajor_val_two]
  show h.val * 1 + 0 = 0 * 64 + h.val
  omega

/-- b2 as a 1 × 1 matrix. -/
theorem V1_v4 (c : Dev nD) :
    (V1 m ρ c main_v4 : S1x1.Idx → EReal) (ix2 (0 : Fin 1) (0 : Fin 1)) = aB2 m c (ix1 (0 : Fin 1)) := by
  show (StableHlo.after hostOps0 (W0 m ρ c) (Proc.devRef .tc main_v4) : S1x1.Idx → EReal) (ix2 (0 : Fin 1) (0 : Fin 1)) = _
  after_results
  exact row_cast _ _ (0 : Fin 1)

/-- The layer's bias, scale and shift vectors as rows. -/
theorem V1_v5 (c : Dev nD) (o : Fin 32) :
    (V1 m ρ c main_v5 : S1x32.Idx → EReal) (ix2 (0 : Fin 1) o) = aGB m c (ix1 o) := by
  show (StableHlo.after hostOps0 (W0 m ρ c) (Proc.devRef .tc main_v5) : S1x32.Idx → EReal) (ix2 (0 : Fin 1) o) = _
  after_results
  exact row_cast _ _ o
theorem V1_v6 (c : Dev nD) (o : Fin 32) :
    (V1 m ρ c main_v6 : S1x32.Idx → EReal) (ix2 (0 : Fin 1) o) = aGa m c (ix1 o) := by
  show (StableHlo.after hostOps0 (W0 m ρ c) (Proc.devRef .tc main_v6) : S1x32.Idx → EReal) (ix2 (0 : Fin 1) o) = _
  after_results
  exact row_cast _ _ o
theorem V1_v7 (c : Dev nD) (o : Fin 32) :
    (V1 m ρ c main_v7 : S1x32.Idx → EReal) (ix2 (0 : Fin 1) o) = aBe m c (ix1 o) := by
  show (StableHlo.after hostOps0 (W0 m ρ c) (Proc.devRef .tc main_v7) : S1x32.Idx → EReal) (ix2 (0 : Fin 1) o) = _
  after_results
  exact row_cast _ _ o

/-! ## Between the two kernels -/

/-- The adjacency array passes the host operations between the kernels untouched. -/
theorem V3_v16_0 (c : Dev nD) : V3 m ρ c main_v16_0 = W2 m ρ c (Proc.devRef .tc main_v16_0) := by
  show StableHlo.after hostOps1 (W2 m ρ c) (Proc.devRef .tc main_v16_0) = _
  after_results

/-- The reciprocal of the degree column, entry by entry. -/
theorem V3_v18 (c : Dev nD) (p : Fin 512) :
    (V3 m ρ c main_v18 : S512x1.Idx → EReal) (ix2 p (0 : Fin 1))
      = Ideal.div 1 ((W2 m ρ c (Proc.devRef .tc main_v16_1) : S512x1.Idx → EReal) (ix2 p (0 : Fin 1))) := by
  show (StableHlo.after hostOps1 (W2 m ρ c) (Proc.devRef .tc main_v18) : S512x1.Idx → EReal) (ix2 p (0 : Fin 1)) = _
  after_results
  show Ideal.div (Ideal.ofBits .f32 0x3F800000#32) _ = _
  rw [ofBits_one_f32]

/-- The same reciprocals recast as a row. -/
theorem V3_v19 (c : Dev nD) (q : Fin 512) :
    (V3 m ρ c main_v19 : S1x512.Idx → EReal) (ix2 (0 : Fin 1) q)
      = Ideal.div 1 ((W2 m ρ c (Proc.devRef .tc main_v16_1) : S512x1.Idx → EReal) (ix2 q (0 : Fin 1))) := by
  show (StableHlo.after hostOps1 (W2 m ρ c) (Proc.devRef .tc main_v19) : S1x512.Idx → EReal) (ix2 (0 : Fin 1) q) = _
  after_results
  refine (shapeCast_apply _ _ (ix2 (0 : Fin 1) q) (ix2 q (0 : Fin 1)) ?_).trans ?_
  · rw [Shape.rowMajor_val_two, Shape.rowMajor_val_two]
    show q.val * 1 + 0 = 0 * 512 + q.val
    omega
  · show Ideal.div (Ideal.ofBits .f32 0x3F800000#32) _ = _
    rw [ofBits_one_f32]

/-- x · G and the three row vectors pass the adjacency kernel and the host operations after it untouched. -/
theorem V3_v14 (c : Dev nD) : V3 m ρ c main_v14 = V1 m ρ c main_v14 := by
  show StableHlo.after hostOps1 (W2 m ρ c) (Proc.devRef .tc main_v14) = _
  after_results
  exact W2_of_ne m ρ c main_v14 (by decide)
theorem V3_v5 (c : Dev nD) : V3 m ρ c main_v5 = V1 m ρ c main_v5 := by
  show StableHlo.after hostOps1 (W2 m ρ c) (Proc.devRef .tc main_v5) = _
  after_results
  exact W2_of_ne m ρ c main_v5 (by decide)
theorem V3_v6 (c : Dev nD) : V3 m ρ c main_v6 = V1 m ρ c main_v6 := by
  show StableHlo.after hostOps1 (W2 m ρ c) (Proc.devRef .tc main_v6) = _
  after_results
  exact W2_of_ne m ρ c main_v6 (by decide)
theorem V3_v7 (c : Dev nD) : V3 m ρ c main_v7 = V1 m ρ c main_v7 := by
  show StableHlo.after hostOps1 (W2 m ρ c) (Proc.devRef .tc main_v7) = _
  after_results
  exact W2_of_ne m ρ c main_v7 (by decide)

end Cert.KernelIdeal.Stages

end
-- ==== Proof.Payload0.lean ====
/- What the first kernel's body computes at one index of its two output blocks, over the extended reals.

   The body of grid step t reads the transposed first-layer products  fa  (64 × 512: hidden unit h, node q), the block of
   32 rows 32·t … 32·t + 31 of  fb  (node, hidden unit), the bias b1 and the second layer w2 as rows of 64, and the bias b2.
   It forms, at (r, h, q), the rectified sum  max (fa q h + fb (32·t + r) h + b1 h) 0 , weighs it by w2 h, sums over the 64
   hidden units, adds b2 and applies the logistic function: the relation network's score of the pair (32·t + r, q). To it
   the body adds the identity matrix, read as "row number 32·t + r equals column number q" on 32-bit words: the numbers are
   below 2³², so their words are equal exactly when they are. That is the adjacency  adj (32·t + r) q , the first output.
   The second output is the square root of one plus the sum of that row over its 512 columns: the degree  deg (32·t + r) .

   A shape cast keeps the row-major position, so a unit axis added at the front or at the back changes no other
   coordinate; a broadcast reads the operand at the same coordinates with 0 on its unit axes; a sum over one axis is the
   sum over that axis's coordinate with the other coordinates kept. -/
import proofs.«138939_j55310588838066_2_alg».proof.Proof.Gen.KernelIdeal.Skeleton
import proofs.«138939_j55310588838066_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Cert.KernelIdeal Cert.KernelIdeal.Gen Cert.GraphSpec

namespace Cert.KernelIdeal.PayValue

/-! ## Shape casts and broadcasts at an index -/

section Layout
variable {α : Type}

/-- An [a, b] array cast to [a, b, 1] reads, at (i, j, z), the operand at (i, j), whatever the unit coordinate z. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (z : Fin 1) :
    shapeCast ⟨3, ![a, b, 1]⟩ x h (ix3 i j z) = x (ix2 i j) :=
  shapeCast_apply x h _ _ (by
    have hz : z.val = 0 := by omega
    rw [Shape.rowMajor_val_three, Shape.rowMajor_val_two]
    show i.val * b + j.val = (i.val * b + j.val) * 1 + z.val
    rw [hz, Nat.mul_one, Nat.add_zero])

/-- A vector of a entries cast to an [a, 1] column reads, at (p, z), the vector's entry p. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- [1, 64, 512] broadcast to [32, 64, 512] reads, at (r, h, q), the operand at (0, h, q). -/
theorem bcast_1hq (v : S1x64x512.Idx → α) (r : Fin 32) (h : Fin 64) (q : Fin 512) :
    broadcastTo S32x64x512 v broadcasts_S1x64x512_S32x64x512 (ix3 r h q) = v (ix3 (0 : Fin 1) h q) := by
  refine broadcastTo_apply v broadcasts_S1x64x512_S32x64x512 (ix3 r h q) (ix3 (0 : Fin 1) h q) fun ax => ?_
  match ax with
  | ⟨0, _⟩ => rfl
  | ⟨1, _⟩ => rfl
  | ⟨2, _⟩ => rfl

/-- [32, 64, 1] broadcast to [32, 64, 512] reads, at (r, h, q), the operand at (r, h, 0). -/
theorem bcast_rh1 (v : S32x64x1.Idx → α) (r : Fin 32) (h : Fin 64) (q : Fin 512) :
    broadcastTo S32x64x512 v broadcasts_S32x64x1_S32x64x512 (ix3 r h q) = v (ix3 r h (0 : Fin 1)) := by
  refine broadcastTo_apply v broadcasts_S32x64x1_S32x64x512 (ix3 r h q) (ix3 r h (0 : Fin 1)) fun ax => ?_
  match ax with
  | ⟨0, _⟩ => rfl
  | ⟨1, _⟩ => rfl
  | ⟨2, _⟩ => rfl

/-- [1, 64, 1] broadcast to [32, 64, 512] reads, at (r, h, q), the operand at (0, h, 0). -/
theorem bcast_1h1 (v : S1x64x1.Idx → α) (r : Fin 32) (h : Fin 64) (q : Fin 512) :
    broadcastTo S32x64x512 v broadcasts_S1x64x1_S32x64x512 (ix3 r h q) = v (ix3 (0 : Fin 1) h (0 : Fin 1)) := by
  refine broadcastTo_apply v broadcasts_S1x64x1_S32x64x512 (ix3 r h q) (ix3 (0 : Fin 1) h (0 : Fin 1)) fun ax => ?_
  match ax with
  | ⟨0, _⟩ => rfl
  | ⟨1, _⟩ => rfl
  | ⟨2, _⟩ => rfl

/-- The one element of a [1, 1] vector. -/
theorem extractAt_00 (v : S1x1.Idx → α) : extractAt ![0, 0] v inpos_S1x1_p0_0 = v (ix2 (0 : Fin 1) (0 : Fin 1)) := by
  unfold extractAt
  refine congrArg v (funext fun a => ?_)
  match a with
  | ⟨0, _⟩ => rfl
  | ⟨1, _⟩ => rfl

end Layout

/-! ## The two sums -/

/-- The sum over the middle axis of a [32, 64, 512] vector reads, at (r, q), the sum over h of the source at (r, h, q). -/
theorem sum_hidden (src : FVec Ideal S32x64x512 .f32) (hφ : FKind.Formats .f32)
    (hacc : (0x00000000#32 : BitVec 32) = 0x00000000#32) (r : Fin 32) (q : Fin 512) :
    multiReduction .add [1] S32x512 src 0x00000000#32 reduces_S32x64x512_S32x512 hφ hacc (ix2 r q)
      = ∑ h : Fin 64, src (ix3 r h q) := by
  refine (Ideal.multiReduction_add_single src 0x00000000#32 reduces_S32x64x512_S32x512 hφ hacc (ix2 r q)).trans ?_
  refine Finset.sum_congr rfl fun h _ => congrArg src (funext fun c => ?_)
  match c with
  | ⟨0, _⟩ => rfl
  | ⟨1, _⟩ => rfl
  | ⟨2, _⟩ => rfl

/-- The sum over the columns of a [32, 512] vector reads, at r, the sum over q of the source at (r, q). -/
theorem sum_columns (src : FVec Ideal S32x512 .f32) (hφ : FKind.Formats .f32)
    (hacc : (0x00000000#32 : BitVec 32) = 0x00000000#32) (r : Fin 32) :
    multiReduction .add [1] S32 src 0x00000000#32 reduces_S32x512_S32 hφ hacc (ix1 r)
      = ∑ q : Fin 512, src (ix2 r q) := by
  refine (Ideal.multiReduction_add_single src 0x00000000#32 reduces_S32x512_S32 hφ hacc (ix1 r)).trans ?_
  refine Finset.sum_congr rfl fun q _ => congrArg src (funext fun c => ?_)
  match c with
  | ⟨0, _⟩ => rfl
  | ⟨1, _⟩ => rfl

/-! ## The identity matrix -/

/-- The words of n·32 + r and of q, both numbers below 2³², are equal exactly when the numbers are. -/
theorem eye_word (n r q : Nat) (hn : n * 32 + r < 2 ^ 32) (hq : q < 2 ^ 32) :
    IntOp.cmpi .eq (IntOp.addi (IntOp.muli (BitVec.ofNat 32 n) 32#32) (BitVec.ofNat 32 r)) (BitVec.ofNat 32 q)
      = if n * 32 + r = q then 1#1 else 0#1 := by
  have e : IntOp.addi (IntOp.muli (BitVec.ofNat 32 n) 32#32) (BitVec.ofNat 32 r) = BitVec.ofNat 32 (n * 32 + r) := by
    unfold IntOp.addi IntOp.muli
    rw [BitVec.ofNat_add, BitVec.ofNat_mul]
  rw [e]
  unfold IntOp.cmpi
  show BitVec.ofBool (BitVec.ofNat 32 (n * 32 + r) == BitVec.ofNat 32 q) = _
  by_cases h : n * 32 + r = q
  · rw [if_pos h, h]; simp
  · rw [if_neg h]
    have hne : BitVec.ofNat 32 (n * 32 + r) ≠ BitVec.ofNat 32 q := fun e => h (by
      have := congrArg BitVec.toNat e
      rw [BitVec.toNat_ofNat, BitVec.toNat_ofNat, Nat.mod_eq_of_lt hn, Nat.mod_eq_of_lt hq] at this
      exact this)
    rw [beq_eq_false_iff_ne.mpr hne]
    rfl

/-- The identity matrix's block of grid step t at (r, q): 1 when 32·t + r = q, 0 otherwise. -/
theorem eye_block (t : Fin 16) (r : Fin 32) (q : Fin 512) :
    select (cmpi .eq (addi (broadcast S32x512 (Scalar.muli (BitVec.ofNat 32 t.val) 32#32))
          (iota .tc S32x512 32 [0] iota_S32x512_d0_w32)) (iota .tc S32x512 32 [1] iota_S32x512_d1_w32))
        (broadcast S32x512 (Scalar.ofBits (F := Ideal) .f32 0x3F800000#32))
        (broadcast S32x512 (Scalar.ofBits (F := Ideal) .f32 0x00000000#32)) (ix2 r q)
      = if (⟨32 * t.val + r.val, by omega⟩ : Fin 512) = q then (1 : EReal) else 0 := by
  rw [select_apply, broadcast_apply, broadcast_apply]
  show Scalar.select (IntOp.cmpi .eq (IntOp.addi (IntOp.muli (BitVec.ofNat 32 t.val) 32#32)
      (iota .tc S32x512 32 [0] iota_S32x512_d0_w32 (ix2 r q))) (iota .tc S32x512 32 [1] iota_S32x512_d1_w32 (ix2 r q)))
      (Ideal.ofBits .f32 0x3F800000#32) (Ideal.ofBits .f32 0x00000000#32) = _
  rw [iota_single_apply, iota_single_apply, ofBits_one_f32, Ideal.ofBits_zero_f32]
  show Scalar.select (IntOp.cmpi .eq (IntOp.addi (IntOp.muli (BitVec.ofNat 32 t.val) 32#32) (BitVec.ofNat 32 r.val))
      (BitVec.ofNat 32 q.val)) (1 : EReal) 0 = _
  rw [eye_word t.val r.val q.val (by omega) (by omega)]
  by_cases h : t.val * 32 + r.val = q.val
  · rw [if_pos h, select_one, if_pos (Fin.ext (by show 32 * t.val + r.val = q.val; omega))]
  · rw [if_neg h, select_zero, if_neg (fun e => h (by have := congrArg Fin.val e; simp only at this; omega))]

/-! ## The two payloads -/

/-- The first output block at (r, q) is the adjacency at (32·t + r, q). -/
theorem adj_block (i : grid0.Coords) (t : Fin 16) (ht : (i 0).val = t.val)
    (v0 : Vec Ideal S64x512 .f32) (v2 : Vec Ideal S32x64 .f32) (v4 v7 : Vec Ideal S1x64 .f32) (v10 : Vec Ideal S1x1 .f32)
    (x : FVec Ideal T512x512 .f32) (w1 : FVec Ideal T1024x64 .f32) (b1 : FVec Ideal T64 .f32) (w2 : FVec Ideal T64x1 .f32)
    (b2 : FVec Ideal T1 .f32)
    (h0 : ∀ (h : Fin 64) (q : Fin 512), v0 (ix2 h q) = fa x w1 q h)
    (h2 : ∀ (r : Fin 32) (h : Fin 64), v2 (ix2 r h) = fb x w1 ⟨32 * t.val + r.val, by omega⟩ h)
    (h4 : ∀ h : Fin 64, v4 (ix2 (0 : Fin 1) h) = b1 (ix1 h))
    (h7 : ∀ h : Fin 64, v7 (ix2 (0 : Fin 1) h) = w2 (ix2 h (0 : Fin 1)))
    (h10 : v10 (ix2 (0 : Fin 1) (0 : Fin 1)) = b2 (ix1 (0 : Fin 1)))
    (r : Fin 32) (q : Fin 512) :
    k0_pay2 (F := Ideal) i v0 v2 v4 v7 v10 (ix2 r q) = adj x w1 b1 w2 b2 ⟨32 * t.val + r.val, by omega⟩ q := by
  unfold k0_pay2
  simp only [shapeCast_self]
  rw [addf_apply, ht, eye_block t r q]
  unfold adj
  refine congrArg (fun z : EReal => (if (⟨32 * t.val + r.val, by omega⟩ : Fin 512) = q then (1 : EReal) else 0) + z) ?_
  show Ideal.logistic _ = Ideal.logistic _
  refine congrArg Ideal.logistic ?_
  rw [addf_apply, sum_hidden, broadcast_apply, extractAt_00, h10]
  unfold logit
  refine congrArg (fun z : EReal => z + b2 (ix1 (0 : Fin 1))) (Finset.sum_congr rfl fun h _ => ?_)
  rw [mulf_apply, maximumf_apply, addf_apply, addf_apply, bcast_1hq, bcast_rh1, bcast_1h1, bcast_1h1,
    shapeCast_ab_1ab_apply, shapeCast_ab_ab1_apply, shapeCast_ab_ab1_apply, shapeCast_ab_ab1_apply, broadcast_apply,
    h0, h2, h4, h7]
  show max _ (Ideal.ofBits .f32 0x00000000#32) * _ = _
  rw [Ideal.ofBits_zero_f32]

/-- The second output block at (r, 0) is the degree of node 32·t + r. -/
theorem deg_block (i : grid0.Coords) (t : Fin 16) (ht : (i 0).val = t.val)
    (v0 : Vec Ideal S64x512 .f32) (v2 : Vec Ideal S32x64 .f32) (v4 v7 : Vec Ideal S1x64 .f32) (v10 : Vec Ideal S1x1 .f32)
    (x : FVec Ideal T512x512 .f32) (w1 : FVec Ideal T1024x64 .f32) (b1 : FVec Ideal T64 .f32) (w2 : FVec Ideal T64x1 .f32)
    (b2 : FVec Ideal T1 .f32)
    (h0 : ∀ (h : Fin 64) (q : Fin 512), v0 (ix2 h q) = fa x w1 q h)
    (h2 : ∀ (r : Fin 32) (h : Fin 64), v2 (ix2 r h) = fb x w1 ⟨32 * t.val + r.val, by omega⟩ h)
    (h4 : ∀ h : Fin 64, v4 (ix2 (0 : Fin 1) h) = b1 (ix1 h))
    (h7 : ∀ h : Fin 64, v7 (ix2 (0 : Fin 1) h) = w2 (ix2 h (0 : Fin 1)))
    (h10 : v10 (ix2 (0 : Fin 1) (0 : Fin 1)) = b2 (ix1 (0 : Fin 1)))
    (r : Fin 32) :
    k0_pay1 (F := Ideal) (k0_pay3 (F := Ideal) i v0 v2 v4 v7 v10) (ix2 r (0 : Fin 1))
      = deg x w1 b1 w2 b2 ⟨32 * t.val + r.val, by omega⟩ := by
  unfold k0_pay1 k0_pay3
  show Ideal.sqrt (shapeCast S32x1 (multiReduction .add [1] S32 (k0_pay2 (F := Ideal) i v0 v2 v4 v7 v10) 0x00000000#32
      reduces_S32x512_S32 (.inl rfl) rfl) shapeCasts_S32_S32x1 (ix2 r (0 : Fin 1)) + Ideal.ofBits .f32 0x3F800000#32) = _
  rw [ofBits_one_f32]
  unfold deg
  refine congrArg (fun z : EReal => Ideal.sqrt (z + 1)) ?_
  refine (shapeCast_a_a1_apply _ shapeCasts_S32_S32x1 r (0 : Fin 1)).trans ?_
  refine (sum_columns _ (.inl rfl) rfl r).trans (Finset.sum_congr rfl fun q _ => ?_)
  exact adj_block i t ht v0 v2 v4 v7 v10 x w1 b1 w2 b2 h0 h2 h4 h7 h10 r q

end Cert.KernelIdeal.PayValue

end
-- ==== Proof.Region0.lean ====
/- From what the adjacency kernel's body leaves at one grid point to its two whole output arrays.
   The grid has 16 points; point t reads rows 32 t … 32 t + 31 of x · W1b, the whole of (x · W1a) transposed and of the
   three small operands, and writes back rows 32 t … 32 t + 31 of the adjacency (a 32 × 512 block) and of the degree
   column (32 × 1). Entry (r, q) of the first block is adj (32 t + r) q and entry (r, 0) of the second is deg (32 t + r);
   the 16 blocks tile the arrays, row p being covered by point p / 32. -/
import proofs.«138939_j55310588838066_2_alg».proof.Proof.KernelIdealFrame
import proofs.«138939_j55310588838066_2_alg».proof.Proof.Payload0
import proofs.«138939_j55310588838066_2_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.GenP Cert.GraphSpec Cert.KernelIdeal.PayValue
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The index maps of the adjacency kernel's windows, decided once over its 16 points: the row-tiled windows sit at block
    row t, the others at block (0, 0); the point's grid coordinate is t. -/
theorem idx0 : ∀ t : Fin cfg0.N,
    (win0_0.index t 0 = 0 ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (grid0.coords t 0).val = t.val :=
  (by decide +kernel : ∀ t : Fin grid0.N, _)

theorem lt16 (t : Fin cfg0.N) : t.val < 16 := by have := t.isLt; have h : cfg0.N = 16 := N_0; omega

/-- Row 32 t + r of a 512-row array. -/
abbrev row32 (t : Fin cfg0.N) (r : Fin 32) : Fin 512 := ⟨32 * t.val + r.val, by have := lt16 t; omega⟩

/-! ## The input blocks at a point -/

theorem blk0_0 (c : Dev nD) (t : Fin cfg0.N) (h : Fin 64) (q : Fin 512) :
    (iblk0 V c 0 t : S64x512.Idx → EReal) (ix2 h q) = (V c main_v15 : S64x512.Idx → EReal) (ix2 h q) := by
  obtain ⟨⟨e0, e1⟩, -⟩ := idx0 t
  unfold iblk0
  rw [View.read_apply]
  show (V c main_v15 : S64x512.Idx → EReal) _ = _
  congr 1
  funext a
  apply Fin.ext
  match a with
  | ⟨0, _⟩ => show win0_0.index t 0 * 64 + 1 * h.val = h.val; rw [e0]; omega
  | ⟨1, _⟩ => show win0_0.index t 1 * 512 + 1 * q.val = q.val; rw [e1]; omega

theorem blk0_1 (c : Dev nD) (t : Fin cfg0.N) (r : Fin 32) (h : Fin 64) :
    (iblk0 V c 1 t : S32x64.Idx → EReal) (ix2 r h) = (V c main_v12 : S512x64.Idx → EReal) (ix2 (row32 t r) h) := by
  obtain ⟨-, ⟨e0, e1⟩, -⟩ := idx0 t
  unfold iblk0
  rw [View.read_apply]
  show (V c main_v12 : S512x64.Idx → EReal) _ = _
  congr 1
  funext a
  apply Fin.ext
  match a with
  | ⟨0, _⟩ => show win0_1.index t 0 * 32 + 1 * r.val = 32 * t.val + r.val; rw [e0]; omega
  | ⟨1, _⟩ => show win0_1.index t 1 * 64 + 1 * h.val = h.val; rw [e1]; omega

theorem blk0_2 (c : Dev nD) (t : Fin cfg0.N) (h : Fin 64) :
    (iblk0 V c 2 t : S1x64.Idx → EReal) (ix2 (0 : Fin 1) h) = (V c main_v2 : S1x64.Idx → EReal) (ix2 (0 : Fin 1) h) := by
  obtain ⟨-, -, ⟨e0, e1⟩, -⟩ := idx0 t
  unfold iblk0
  rw [View.read_apply]
  show (V c main_v2 : S1x64.Idx → EReal) _ = _
  congr 1
  funext a
  apply Fin.ext
  match a with
  | ⟨0, _⟩ => show win0_2.index t 0 * 1 + 1 * 0 = 0; rw [e0]
  | ⟨1, _⟩ => show win0_2.index t 1 * 64 + 1 * h.val = h.val; rw [e1]; omega

theorem blk0_3 (c : Dev nD) (t : Fin cfg0.N) (h : Fin 64) :
    (iblk0 V c 3 t : S1x64.Idx → EReal) (ix2 (0 : Fin 1) h) = (V c main_v3 : S1x64.Idx → EReal) (ix2 (0 : Fin 1) h) := by
  obtain ⟨-, -, -, ⟨e0, e1⟩, -⟩ := idx0 t
  unfold iblk0
  rw [View.read_apply]
  show (V c main_v3 : S1x64.Idx → EReal) _ = _
  congr 1
  funext a
  apply Fin.ext
  match a with
  | ⟨0, _⟩ => show win0_3.index t 0 * 1 + 1 * 0 = 0; rw [e0]
  | ⟨1, _⟩ => show win0_3.index t 1 * 64 + 1 * h.val = h.val; rw [e1]; omega

theorem blk0_4 (c : Dev nD) (t : Fin cfg0.N) :
    (iblk0 V c 4 t : S1x1.Idx → EReal) (ix2 (0 : Fin 1) (0 : Fin 1)) = (V c main_v4 : S1x1.Idx → EReal) (ix2 (0 : Fin 1) (0 : Fin 1)) := by
  obtain ⟨-, -, -, -, ⟨e0, e1⟩, -⟩ := idx0 t
  unfold iblk0
  rw [View.read_apply]
  show (V c main_v4 : S1x1.Idx → EReal) _ = _
  congr 1
  funext a
  apply Fin.ext
  match a with
  | ⟨0, _⟩ => show win0_4.index t 0 * 1 + 1 * 0 = 0; rw [e0]
  | ⟨1, _⟩ => show win0_4.index t 1 * 1 + 1 * 0 = 0; rw [e1]

/-! ## What a point writes back, and the whole arrays -/

section
variable (c : Dev nD) (x : FVec Ideal T512x512 .f32) (w1 : FVec Ideal T1024x64 .f32) (b1 : FVec Ideal T64 .f32)
  (w2 : FVec Ideal T64x1 .f32) (b2 : FVec Ideal T1 .f32)
  (h15 : ∀ (h : Fin 64) (q : Fin 512), (V c main_v15 : S64x512.Idx → EReal) (ix2 h q) = fa x w1 q h)
  (h12 : ∀ (p : Fin 512) (h : Fin 64), (V c main_v12 : S512x64.Idx → EReal) (ix2 p h) = fb x w1 p h)
  (h2 : ∀ h : Fin 64, (V c main_v2 : S1x64.Idx → EReal) (ix2 (0 : Fin 1) h) = b1 (ix1 h))
  (h3 : ∀ h : Fin 64, (V c main_v3 : S1x64.Idx → EReal) (ix2 (0 : Fin 1) h) = w2 (ix2 h (0 : Fin 1)))
  (h4 : (V c main_v4 : S1x1.Idx → EReal) (ix2 (0 : Fin 1) (0 : Fin 1)) = b2 (ix1 (0 : Fin 1)))

/-- The adjacency as an array. -/
abbrev adjArr : S512x512.Idx → EReal := fun p => adj x w1 b1 w2 b2 (p 0) (p 1)
/-- The degree column as an array. -/
abbrev degArr : S512x1.Idx → EReal := fun p => deg x w1 b1 w2 b2 (p 0)

include h15 h12 h2 h3 h4

set_option backward.isDefEq.respectTransparency.types false in
/-- Point t writes back rows 32 t … 32 t + 31 of the adjacency. -/
theorem flushed0_5 (t : Fin cfg0.N) :
    (dat0 V c).flushed 5 t = ((cfg0.win 5).blk t).view.read (Elt Ideal) (adjArr x w1 b1 w2 b2) := by
  obtain ⟨-, -, -, -, -, ⟨e0, e1⟩, -, eg⟩ := idx0 t
  show (cfg0.win 5).cut (grid0.coords t) ((dat0 V c).after 5 t) = _
  rw [after0_5]
  unfold out0_5
  rw [View.canon_unit_zero zeros2]
  simp only [View.ld_unit_zero (S := S64x512) zeros2, View.ld_unit_zero (S := S32x64) zeros2,
    View.ld_unit_zero (S := S1x64) zeros2, View.ld_unit_zero (S := S1x1) zeros2]
  funext y
  obtain ⟨r, q, rfl⟩ : ∃ (r : Fin 32) (q : Fin 512), y = ix2 r q := ⟨y 0, y 1, eq_ix2 y⟩
  show k0_pay2 (F := Ideal) (grid0.coords t) (iblk0 V c 0 t) (iblk0 V c 1 t) (iblk0 V c 2 t) (iblk0 V c 3 t) (iblk0 V c 4 t) (ix2 r q)
      = adj x w1 b1 w2 b2 ((((cfg0.win 5).blk t).view.emb (ix2 r q)) 0) ((((cfg0.win 5).blk t).view.emb (ix2 r q)) 1)
  have hemb0 : (((cfg0.win 5).blk t).view.emb (ix2 r q)) 0 = row32 t r :=
    Fin.ext (by show win0_5.index t 0 * 32 + 1 * r.val = 32 * t.val + r.val; rw [e0]; omega)
  have hemb1 : (((cfg0.win 5).blk t).view.emb (ix2 r q)) 1 = q :=
    Fin.ext (by show win0_5.index t 1 * 512 + 1 * q.val = q.val; rw [e1]; omega)
  rw [hemb0, hemb1]
  exact adj_block (grid0.coords t) ⟨t.val, lt16 t⟩ eg (iblk0 V c 0 t) (iblk0 V c 1 t) (iblk0 V c 2 t) (iblk0 V c 3 t)
    (iblk0 V c 4 t) x w1 b1 w2 b2
    (fun h q => (blk0_0 V c t h q).trans (h15 h q))
    (fun r h => (blk0_1 V c t r h).trans (h12 _ h))
    (fun h => (blk0_2 V c t h).trans (h2 h)) (fun h => (blk0_3 V c t h).trans (h3 h)) ((blk0_4 V c t).trans h4) r q

set_option backward.isDefEq.respectTransparency.types false in
/-- Point t writes back rows 32 t … 32 t + 31 of the degree column. -/
theorem flushed0_6 (t : Fin cfg0.N) :
    (dat0 V c).flushed 6 t = ((cfg0.win 6).blk t).view.read (Elt Ideal) (degArr x w1 b1 w2 b2) := by
  obtain ⟨-, -, -, -, -, -, ⟨e0, e1⟩, eg⟩ := idx0 t
  show (cfg0.win 6).cut (grid0.coords t) ((dat0 V c).after 6 t) = _
  rw [after0_6]
  unfold out0_6
  rw [View.canon_unit_zero zeros2]
  simp only [View.ld_unit_zero (S := S64x512) zeros2, View.ld_unit_zero (S := S32x64) zeros2,
    View.ld_unit_zero (S := S1x64) zeros2, View.ld_unit_zero (S := S1x1) zeros2]
  funext y
  obtain ⟨r, z, rfl⟩ : ∃ (r : Fin 32) (z : Fin 1), y = ix2 r z := ⟨y 0, y 1, eq_ix2 y⟩
  obtain rfl : z = 0 := Subsingleton.elim _ _
  show k0_pay1 (F := Ideal) (k0_pay3 (F := Ideal) (grid0.coords t) (iblk0 V c 0 t) (iblk0 V c 1 t) (iblk0 V c 2 t) (iblk0 V c 3 t) (iblk0 V c 4 t)) (ix2 r (0 : Fin 1))
      = deg x w1 b1 w2 b2 ((((cfg0.win 6).blk t).view.emb (ix2 r (0 : Fin 1))) 0)
  have hemb0 : (((cfg0.win 6).blk t).view.emb (ix2 r (0 : Fin 1))) 0 = row32 t r :=
    Fin.ext (by show win0_6.index t 0 * 32 + 1 * r.val = 32 * t.val + r.val; rw [e0]; omega)
  rw [hemb0]
  exact deg_block (grid0.coords t) ⟨t.val, lt16 t⟩ eg (iblk0 V c 0 t) (iblk0 V c 1 t) (iblk0 V c 2 t) (iblk0 V c 3 t)
    (iblk0 V c 4 t) x w1 b1 w2 b2
    (fun h q => (blk0_0 V c t h q).trans (h15 h q))
    (fun r h => (blk0_1 V c t r h).trans (h12 _ h))
    (fun h => (blk0_2 V c t h).trans (h2 h)) (fun h => (blk0_3 V c t h).trans (h3 h)) ((blk0_4 V c t).trans h4) r

end

/-- Row p of the adjacency is in the block of point p / 32. -/
theorem cover0_5 (i : S512x512.Idx) : ∃ t : Fin cfg0.N, (cfg0.win 5).flush t = true ∧ i ∈ ((cfg0.win 5).blk t).view.set := by
  have hi0 : (i 0).val < 512 := (i 0).isLt
  have hi1 : (i 1).val < 512 := (i 1).isLt
  have hN : cfg0.N = 16 := N_0
  obtain ⟨t, ht⟩ : ∃ t : Fin cfg0.N, t.val = (i 0).val / 32 := ⟨⟨(i 0).val / 32, by rw [hN]; omega⟩, rfl⟩
  obtain ⟨-, -, -, -, -, ⟨e0, e1⟩, -⟩ := idx0 t
  refine ⟨t, flush0_5 t, ?_⟩
  show i ∈ ((View.whole main_v16_0).slice (win0_5.rect t)).set
  rw [View.set_slice_whole, Rect.mem_set_unit]
  intro a
  match a with
  | ⟨0, _⟩ =>
    show win0_5.index t 0 * 32 ≤ (i 0).val ∧ (i 0).val < win0_5.index t 0 * 32 + 32
    rw [e0, ht]; omega
  | ⟨1, _⟩ =>
    show win0_5.index t 1 * 512 ≤ (i 1).val ∧ (i 1).val < win0_5.index t 1 * 512 + 512
    rw [e1]; omega

/-- Row p of the degree column is in the block of point p / 32. -/
theorem cover0_6 (i : S512x1.Idx) : ∃ t : Fin cfg0.N, (cfg0.win 6).flush t = true ∧ i ∈ ((cfg0.win 6).blk t).view.set := by
  have hi0 : (i 0).val < 512 := (i 0).isLt
  have hi1 : (i 1).val < 1 := (i 1).isLt
  have hN : cfg0.N = 16 := N_0
  obtain ⟨t, ht⟩ : ∃ t : Fin cfg0.N, t.val = (i 0).val / 32 := ⟨⟨(i 0).val / 32, by rw [hN]; omega⟩, rfl⟩
  obtain ⟨-, -, -, -, -, -, ⟨e0, e1⟩, -⟩ := idx0 t
  refine ⟨t, flush0_6 t, ?_⟩
  show i ∈ ((View.whole main_v16_1).slice (win0_6.rect t)).set
  rw [View.set_slice_whole, Rect.mem_set_unit]
  intro a
  match a with
  | ⟨0, _⟩ =>
    show win0_6.index t 0 * 32 ≤ (i 0).val ∧ (i 0).val < win0_6.index t 0 * 32 + 32
    rw [e0, ht]; omega
  | ⟨1, _⟩ =>
    show win0_6.index t 1 * 1 ≤ (i 1).val ∧ (i 1).val < win0_6.index t 1 * 1 + 1
    rw [e1]; omega

section
variable (c : Dev nD) (x : FVec Ideal T512x512 .f32) (w1 : FVec Ideal T1024x64 .f32) (b1 : FVec Ideal T64 .f32)
  (w2 : FVec Ideal T64x1 .f32) (b2 : FVec Ideal T1 .f32)
  (h15 : ∀ (h : Fin 64) (q : Fin 512), (V c main_v15 : S64x512.Idx → EReal) (ix2 h q) = fa x w1 q h)
  (h12 : ∀ (p : Fin 512) (h : Fin 64), (V c main_v12 : S512x64.Idx → EReal) (ix2 p h) = fb x w1 p h)
  (h2 : ∀ h : Fin 64, (V c main_v2 : S1x64.Idx → EReal) (ix2 (0 : Fin 1) h) = b1 (ix1 h))
  (h3 : ∀ h : Fin 64, (V c main_v3 : S1x64.Idx → EReal) (ix2 (0 : Fin 1) h) = w2 (ix2 h (0 : Fin 1)))
  (h4 : (V c main_v4 : S1x1.Idx → EReal) (ix2 (0 : Fin 1) (0 : Fin 1)) = b2 (ix1 (0 : Fin 1)))

include h15 h12 h2 h3 h4

/-- After its 16 points the adjacency kernel's first output array is the adjacency. -/
theorem final0_5 : (dat0 V c).arrAt 5 cfg0.N = adjArr x w1 b1 w2 b2 :=
  (dat0 V c).arrAt_eq_of_cover 5 (adjArr x w1 b1 w2 b2) (fun t _ => flushed0_5 V c x w1 b1 w2 b2 h15 h12 h2 h3 h4 t) cover0_5

/-- … and its second the degree column. -/
theorem final0_6 : (dat0 V c).arrAt 6 cfg0.N = degArr x w1 b1 w2 b2 :=
  (dat0 V c).arrAt_eq_of_cover 6 (degArr x w1 b1 w2 b2) (fun t _ => flushed0_6 V c x w1 b1 w2 b2 h15 h12 h2 h3 h4 t) cover0_6

end

end Cert.KernelIdeal.Blocks

end
-- ==== Proof.Payload1.lean ====
/- What the second kernel's body computes at one index of its two output blocks, over the extended reals.

   The body reads a block of 128 rows of the adjacency (rows 128·t … 128·t + 127), the reciprocal degrees of those rows as a
   column, the reciprocal degrees of all 512 nodes as a row, the product x · G, and the three vectors of the affine map. Its
   first output is  a r q · inv r · inv q , the normalised adjacency  anorm ; its second is one graph-convolution layer,
   max (γ o · ((∑ j, anorm r j · fg j o) + g o) · c + β o) 0 .

   A broadcast of a column reads its row, of a row its column; a shape cast to the same shape is the identity; the format
   changes are the identity on extended reals; the matrix product into the zero splat is the sum of products over the one
   contracted axis. -/
import proofs.«138939_j55310588838066_2_alg».proof.Proof.Gen.KernelIdeal.Skeleton
import proofs.«138939_j55310588838066_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Cert.KernelIdeal Cert.KernelIdeal.Gen Cert.GraphSpec

namespace Cert.KernelIdeal.PayValue

/-- The row of the whole array that sits under row r of block t (blocks of 128 rows). -/
abbrev row128 (t : Fin 4) (r : Fin 128) : Fin 512 := ⟨128 * t.val + r.val, by omega⟩

/-! ## The layout operations at an index -/

/-- A column [128, 1] broadcast to [128, 512] reads, at (r, q), the column at r. -/
theorem bcast_col_128 (v : FVec Ideal S128x1 .f32) (r : Fin 128) (q : Fin 512) :
    broadcastTo S128x512 v broadcasts_S128x1_S128x512 (ix2 r q) = v (ix2 r (0 : Fin 1)) := by
  refine broadcastTo_apply v broadcasts_S128x1_S128x512 (ix2 r q) (ix2 r (0 : Fin 1)) fun ax => ?_
  match ax with
  | ⟨0, _⟩ => rfl
  | ⟨1, _⟩ => rfl

/-! ## The matrix product at an index -/

theorem lhs_dot_0 (i : S128x32.Idx) (q : dot_S128x512_S512x32_S128x32_1_0_0_1_n_n.contr.Idx) :
    (dot_S128x512_S512x32_S128x32_1_0_0_1_n_n.lhsIdx i q 0).val = (i 0).val := by
  unfold DotDims.lhsIdx
  rw [dif_neg (show ¬(0 : Fin S128x512.rank) ∈ dot_S128x512_S512x32_S128x32_1_0_0_1_n_n.lhsBatch by decide),
    dif_pos (show (0 : Fin S128x512.rank) ∈ dot_S128x512_S512x32_S128x32_1_0_0_1_n_n.lhsNonContracting by decide)]
  rfl
theorem lhs_dot_1 (i : S128x32.Idx) (q : dot_S128x512_S512x32_S128x32_1_0_0_1_n_n.contr.Idx) :
    (dot_S128x512_S512x32_S128x32_1_0_0_1_n_n.lhsIdx i q 1).val = (q ⟨0, by decide⟩).val :=
  dot_S128x512_S512x32_S128x32_1_0_0_1_n_n.lhsIdx_val_of_single rfl i q
theorem rhs_dot_0 (i : S128x32.Idx) (q : dot_S128x512_S512x32_S128x32_1_0_0_1_n_n.contr.Idx) :
    (dot_S128x512_S512x32_S128x32_1_0_0_1_n_n.rhsIdx i q 0).val = (q ⟨0, by decide⟩).val :=
  dot_S128x512_S512x32_S128x32_1_0_0_1_n_n.rhsIdx_val_of_single rfl i q
theorem rhs_dot_1 (i : S128x32.Idx) (q : dot_S128x512_S512x32_S128x32_1_0_0_1_n_n.contr.Idx) :
    (dot_S128x512_S512x32_S128x32_1_0_0_1_n_n.rhsIdx i q 1).val = (i 1).val := by
  unfold DotDims.rhsIdx
  rw [dif_neg (show ¬(1 : Fin S512x32.rank) ∈ dot_S128x512_S512x32_S128x32_1_0_0_1_n_n.rhsBatch by decide),
    dif_pos (show (1 : Fin S512x32.rank) ∈ dot_S128x512_S512x32_S128x32_1_0_0_1_n_n.rhsNonContracting by decide)]
  rfl

/-- The [128, 512] × [512, 32] product into the zero splat reads, at (r, o), the sum over k of A (r, k) · B (k, o). -/
theorem matmul_128_apply {φ₁ φ₂ : FTy} (A : FVec Ideal S128x512 φ₁) (B : FVec Ideal S512x32 φ₂) (r : Fin 128) (o : Fin 32) :
    matmul dot_S128x512_S512x32_S128x32_1_0_0_1_n_n none A B (constant S128x32 .f32 0x00000000#32) (ix2 r o)
      = ∑ k : Fin 512, A (ix2 r k) * B (ix2 k o) := by
  simp only [matmul]
  rw [Ideal.matmul_constant_zero_apply,
    ← Equiv.sum_comp (contrEquiv1 dot_S128x512_S512x32_S128x32_1_0_0_1_n_n 512 rfl rfl).symm]
  refine Finset.sum_congr rfl fun k _ => ?_
  have hk := contrEquiv1_symm_val dot_S128x512_S512x32_S128x32_1_0_0_1_n_n 512 rfl rfl k
  have el : dot_S128x512_S512x32_S128x32_1_0_0_1_n_n.lhsIdx (ix2 r o)
      ((contrEquiv1 dot_S128x512_S512x32_S128x32_1_0_0_1_n_n 512 rfl rfl).symm k) = ix2 r k := funext fun a => Fin.ext (by
    match a with
    | ⟨0, _⟩ => exact lhs_dot_0 _ _
    | ⟨1, _⟩ => exact (lhs_dot_1 _ _).trans hk)
  have er : dot_S128x512_S512x32_S128x32_1_0_0_1_n_n.rhsIdx (ix2 r o)
      ((contrEquiv1 dot_S128x512_S512x32_S128x32_1_0_0_1_n_n 512 rfl rfl).symm k) = ix2 k o := funext fun a => Fin.ext (by
    match a with
    | ⟨0, _⟩ => exact (rhs_dot_0 _ _).trans hk
    | ⟨1, _⟩ => exact rhs_dot_1 _ _)
  rw [el, er]

/-! ## The two payloads -/

/-- The first output block at (r, q) is the normalised adjacency at (128·t + r, q). -/
theorem anorm_block (t : Fin 4)
    (v0 : Vec Ideal S128x512 .f32) (v2 : Vec Ideal S128x1 .f32) (v4 : Vec Ideal S1x512 .f32)
    (x : FVec Ideal T512x512 .f32) (w1 : FVec Ideal T1024x64 .f32) (b1 : FVec Ideal T64 .f32) (w2 : FVec Ideal T64x1 .f32)
    (b2 : FVec Ideal T1 .f32)
    (h0 : ∀ (r : Fin 128) (q : Fin 512), v0 (ix2 r q) = adj x w1 b1 w2 b2 ⟨128 * t.val + r.val, by omega⟩ q)
    (h2 : ∀ r : Fin 128, v2 (ix2 r (0 : Fin 1)) = inv x w1 b1 w2 b2 ⟨128 * t.val + r.val, by omega⟩)
    (h4 : ∀ q : Fin 512, v4 (ix2 (0 : Fin 1) q) = inv x w1 b1 w2 b2 q)
    (r : Fin 128) (q : Fin 512) :
    k1_pay1 (F := Ideal) v0 v2 v4 (ix2 r q) = anorm x w1 b1 w2 b2 ⟨128 * t.val + r.val, by omega⟩ q := by
  unfold k1_pay1
  simp only [shapeCast_self]
  rw [mulf_apply, mulf_apply, bcast_col_128, broadcastTo_1b_ab_apply, h0, h2, h4]
  rfl

/-- The second output block at (r, o) is the layer's output at (128·t + r, o). -/
theorem layer_block (t : Fin 4)
    (v0 : Vec Ideal S128x512 .f32) (v2 : Vec Ideal S128x1 .f32) (v4 : Vec Ideal S1x512 .f32)
    (v11 : Vec Ideal S512x32 .f32) (v16 v20 v26 : Vec Ideal S1x32 .f32)
    (x : FVec Ideal T512x512 .f32) (w1 : FVec Ideal T1024x64 .f32) (b1 : FVec Ideal T64 .f32) (w2 : FVec Ideal T64x1 .f32)
    (b2 : FVec Ideal T1 .f32) (gw : FVec Ideal T512x32 .f32) (gb γ β : FVec Ideal T32 .f32)
    (h0 : ∀ (r : Fin 128) (q : Fin 512), v0 (ix2 r q) = adj x w1 b1 w2 b2 ⟨128 * t.val + r.val, by omega⟩ q)
    (h2 : ∀ r : Fin 128, v2 (ix2 r (0 : Fin 1)) = inv x w1 b1 w2 b2 ⟨128 * t.val + r.val, by omega⟩)
    (h4 : ∀ q : Fin 512, v4 (ix2 (0 : Fin 1) q) = inv x w1 b1 w2 b2 q)
    (h11 : ∀ (j : Fin 512) (o : Fin 32), v11 (ix2 j o) = fg x gw j o)
    (h16 : ∀ o : Fin 32, v16 (ix2 (0 : Fin 1) o) = gb (ix1 o))
    (h20 : ∀ o : Fin 32, v20 (ix2 (0 : Fin 1) o) = γ (ix1 o))
    (h26 : ∀ o : Fin 32, v26 (ix2 (0 : Fin 1) o) = β (ix1 o))
    (r : Fin 128) (o : Fin 32) :
    k1_pay2 (F := Ideal) v0 v2 v4 v11 v16 v20 v26 (ix2 r o)
      = layer x w1 b1 w2 b2 gw gb γ β ⟨128 * t.val + r.val, by omega⟩ o := by
  -- the contraction: the format changes are the identity, the left factor is the first output block
  have hsum : matmul dot_S128x512_S512x32_S128x32_1_0_0_1_n_n none
        (truncf .bf16 (k1_pay1 (F := Ideal) v0 v2 v4) bitsLt_bf16_f32) (truncf .bf16 v11 bitsLt_bf16_f32)
        (constant S128x32 .f32 0x00000000#32) (ix2 r o)
      = ∑ j : Fin 512, anorm x w1 b1 w2 b2 ⟨128 * t.val + r.val, by omega⟩ j * fg x gw j o := by
    refine (matmul_128_apply _ _ r o).trans (Finset.sum_congr rfl fun j _ => ?_)
    rw [truncf_apply, truncf_apply, anorm_block t v0 v2 v4 x w1 b1 w2 b2 h0 h2 h4 r j, h11]
  unfold k1_pay2
  simp only [shapeCast_self]
  rw [maximumf_apply, addf_apply, mulf_apply, mulf_apply, addf_apply, hsum, broadcastTo_1b_ab_apply,
    broadcastTo_1b_ab_apply, broadcastTo_1b_ab_apply, broadcast_apply, broadcast_apply, h16, h20, h26]
  show max (γ (ix1 o) * (_ + gb (ix1 o)) * Ideal.ofBits .f32 0x3F7FFFAC#32 + β (ix1 o)) (Ideal.ofBits .f32 0x00000000#32) = _
  rw [Ideal.ofBits_zero_f32]
  rfl

end Cert.KernelIdeal.PayValue

end
-- ==== Proof.Region1.lean ====
/- From what the second kernel's body leaves at each of its four grid points to the whole output arrays.

   The second kernel walks the 512 rows of the adjacency in four blocks of 128 rows. At block t it reads rows
   128·t … 128·t + 127 of the unnormalised adjacency and of the column of reciprocal degrees, the whole row of reciprocal
   degrees, the whole product x · G and the three 32-vectors of the layer, and writes rows 128·t … 128·t + 127 of the
   normalised adjacency and of the layer's output. Every block coordinate is  index × extent + coordinate inside the block,
   and the index maps are (t, 0) for the row-blocked arrays and (0, 0) for the arrays read whole. Row p of either output lies
   in block p / 128, so the four blocks cover the arrays, and each array ends holding the specification's function. -/
import proofs.«138939_j55310588838066_2_alg».proof.Proof.KernelIdealFrame
import proofs.«138939_j55310588838066_2_alg».proof.Proof.Payload1
import proofs.«138939_j55310588838066_2_alg».proof.Proof.Spec
import Idealize.ShloMosaic.Lib.Pipeline.Value
import Idealize.ShloMosaic.Lib.ValueIdx

noncomputable section

open Idealize.ShloMosaic Idealize.ShloMosaic.TcCoe Idealize.ShloMosaic.ValueIdx Idealize.SL.Sem Cert.KernelIdeal Cert.KernelIdeal.Gen Cert.KernelIdeal.GenP Cert.GraphSpec Cert.KernelIdeal.PayValue
open Idealize.ShloMosaic.Pipeline (Dat)

namespace Cert.KernelIdeal.Blocks

variable (V : (c : Dev nD) → (b : Ref sig .tc) → Buf (Elt Ideal) ((c : Thread nD τ).loc b))

/-- The offsets (0, 0). -/
theorem zeros1 : (![0, 0] : Fin 2 → Nat) = fun _ => 0 := funext fun a => by fin_cases a <;> rfl

/-- A grid point as a number below 4. -/
abbrev pt1 (t : Fin cfg1.N) : Fin 4 := ⟨t.val, lt_of_lt_of_eq t.isLt N_1⟩

/-- The index maps, decided once over the four points: block row t for the row-blocked arrays, block (0, 0) for the arrays
    read whole. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ (win1_8.index t (0 : Fin 2) = t.val ∧ win1_8.index t (1 : Fin 2) = 0) :=
  (by decide +kernel : ∀ t : Fin grid1.N, _)

/-! ## Each input block, read where its index map says -/

/-- Block t of the unnormalised adjacency is its rows 128·t … 128·t + 127. -/
theorem blk1_0 (c : Dev nD) (t : Fin cfg1.N) (r : Fin 128) (q : Fin 512) :
    (iblk1 V c 0 t : Vec Ideal S128x512 .f32) (ix2 r q)
      = (V c main_v16_0 : S512x512.Idx → EReal) (ix2 (row128 (pt1 t) r) q) := by
  obtain ⟨⟨e0, e1⟩, -⟩ := idx1 t
  unfold iblk1
  rw [View.read_apply]
  show V c main_v16_0 _ = V c main_v16_0 _
  congr 1
  funext a
  apply Fin.ext
  match a with
  | ⟨0, _⟩ => show win1_0.index t 0 * 128 + 1 * r.val = 128 * t.val + r.val; rw [e0]; omega
  | ⟨1, _⟩ => show win1_0.index t 1 * 512 + 1 * q.val = q.val; rw [e1]; omega

/-- Block t of the column of reciprocal degrees is its rows 128·t … 128·t + 127. -/
theorem blk1_1 (c : Dev nD) (t : Fin cfg1.N) (r : Fin 128) :
    (iblk1 V c 1 t : Vec Ideal S128x1 .f32) (ix2 r (0 : Fin 1))
      = (V c main_v18 : S512x1.Idx → EReal) (ix2 (row128 (pt1 t) r) (0 : Fin 1)) := by
  obtain ⟨-, ⟨e0, e1⟩, -⟩ := idx1 t
  unfold iblk1
  rw [View.read_apply]
  show V c main_v18 _ = V c main_v18 _
  congr 1
  funext a
  apply Fin.ext
  match a with
  | ⟨0, _⟩ => show win1_1.index t 0 * 128 + 1 * r.val = 128 * t.val + r.val; rw [e0]; omega
  | ⟨1, _⟩ => show win1_1.index t 1 * 1 + 1 * 0 = 0; rw [e1]

/-- The row of reciprocal degrees is read whole at every point. -/
theorem blk1_2 (c : Dev nD) (t : Fin cfg1.N) (q : Fin 512) :
    (iblk1 V c 2 t : Vec Ideal S1x512 .f32) (ix2 (0 : Fin 1) q)
      = (V c main_v19 : S1x512.Idx → EReal) (ix2 (0 : Fin 1) q) := by
  obtain ⟨-, -, ⟨e0, e1⟩, -⟩ := idx1 t
  unfold iblk1
  rw [View.read_apply]
  show V c main_v19 _ = V c main_v19 _
  congr 1
  funext a
  apply Fin.ext
  match a with
  | ⟨0, _⟩ => show win1_2.index t 0 * 1 + 1 * 0 = 0; rw [e0]
  | ⟨1, _⟩ => show win1_2.index t 1 * 512 + 1 * q.val = q.val; rw [e1]; omega

/-- The product x · G is read whole at every point. -/
theorem blk1_3 (c : Dev nD) (t : Fin cfg1.N) (j : Fin 512) (o : Fin 32) :
    (iblk1 V c 3 t : Vec Ideal S512x32 .f32) (ix2 j o) = (V c main_v14 : S512x32.Idx → EReal) (ix2 j o) := by
  obtain ⟨-, -, -, ⟨e0, e1⟩, -⟩ := idx1 t
  unfold iblk1
  rw [View.read_apply]
  show V c main_v14 _ = V c main_v14 _
  congr 1
  funext a
  apply Fin.ext
  match a with
  | ⟨0, _⟩ => show win1_3.index t 0 * 512 + 1 * j.val = j.val; rw [e0]; omega
  | ⟨1, _⟩ => show win1_3.index t 1 * 32 + 1 * o.val = o.val; rw [e1]; omega

/-- The layer's bias is read whole at every point. -/
theorem blk1_4 (c : Dev nD) (t : Fin cfg1.N) (o : Fin 32) :
    (iblk1 V c 4 t : Vec Ideal S1x32 .f32) (ix2 (0 : Fin 1) o) = (V c main_v5 : S1x32.Idx → EReal) (ix2 (0 : Fin 1) o) := by
  obtain ⟨-, -, -, -, ⟨e0, e1⟩, -⟩ := idx1 t
  unfold iblk1
  rw [View.read_apply]
  show V c main_v5 _ = V c main_v5 _
  congr 1
  funext a
  apply Fin.ext
  match a with
  | ⟨0, _⟩ => show win1_4.index t 0 * 1 + 1 * 0 = 0; rw [e0]
  | ⟨1, _⟩ => show win1_4.index t 1 * 32 + 1 * o.val = o.val; rw [e1]; omega

/-- The layer's scale vector is read whole at every point. -/
theorem blk1_5 (c : Dev nD) (t : Fin cfg1.N) (o : Fin 32) :
    (iblk1 V c 5 t : Vec Ideal S1x32 .f32) (ix2 (0 : Fin 1) o) = (V c main_v6 : S1x32.Idx → EReal) (ix2 (0 : Fin 1) o) := by
  obtain ⟨-, -, -, -, -, ⟨e0, e1⟩, -⟩ := idx1 t
  unfold iblk1
  rw [View.read_apply]
  show V c main_v6 _ = V c main_v6 _
  congr 1
  funext a
  apply Fin.ext
  match a with
  | ⟨0, _⟩ => show win1_5.index t 0 * 1 + 1 * 0 = 0; rw [e0]
  | ⟨1, _⟩ => show win1_5.index t 1 * 32 + 1 * o.val = o.val; rw [e1]; omega

/-- The layer's shift vector is read whole at every point. -/
theorem blk1_6 (c : Dev nD) (t : Fin cfg1.N) (o : Fin 32) :
    (iblk1 V c 6 t : Vec Ideal S1x32 .f32) (ix2 (0 : Fin 1) o) = (V c main_v7 : S1x32.Idx → EReal) (ix2 (0 : Fin 1) o) := by
  obtain ⟨-, -, -, -, -, -, ⟨e0, e1⟩, -⟩ := idx1 t
  unfold iblk1
  rw [View.read_apply]
  show V c main_v7 _ = V c main_v7 _
  congr 1
  funext a
  apply Fin.ext
  match a with
  | ⟨0, _⟩ => show win1_6.index t 0 * 1 + 1 * 0 = 0; rw [e0]
  | ⟨1, _⟩ => show win1_6.index t 1 * 32 + 1 * o.val = o.val; rw [e1]; omega

/-! ## What each point writes back, and the whole arrays -/

section
variable (x : FVec Ideal T512x512 .f32) (w1 : FVec Ideal T1024x64 .f32) (b1 : FVec Ideal T64 .f32)
  (w2 : FVec Ideal T64x1 .f32) (b2 : FVec Ideal T1 .f32)

/-- Point t writes back rows 128·t … 128·t + 127 of the normalised adjacency. -/
theorem flushed1_7 (c : Dev nD)
    (hA : ∀ p q : Fin 512, (V c main_v16_0 : S512x512.Idx → EReal) (ix2 p q) = adj x w1 b1 w2 b2 p q)
    (hC : ∀ p : Fin 512, (V c main_v18 : S512x1.Idx → EReal) (ix2 p (0 : Fin 1)) = inv x w1 b1 w2 b2 p)
    (hR : ∀ q : Fin 512, (V c main_v19 : S1x512.Idx → EReal) (ix2 (0 : Fin 1) q) = inv x w1 b1 w2 b2 q)
    (t : Fin cfg1.N) :
    (dat1 V c).flushed 7 t = ((cfg1.win 7).blk t).view.read (Elt Ideal) (adjOut x w1 b1 w2 b2) := by
  obtain ⟨-, -, -, -, -, -, -, ⟨e0, e1⟩, -⟩ := idx1 t
  show (cfg1.win 7).cut (grid1.coords t) ((dat1 V c).after 7 t) = _
  rw [after1_7]
  unfold out1_7
  rw [View.canon_unit_zero zeros1]
  simp only [View.ld_unit_zero (S := S128x512) zeros1, View.ld_unit_zero (S := S128x1) zeros1,
    View.ld_unit_zero (S := S1x512) zeros1]
  funext y
  obtain ⟨r, q, rfl⟩ : ∃ (r : Fin 128) (q : Fin 512), y = ix2 r q := ⟨y 0, y 1, eq_ix2 y⟩
  rw [View.read_apply]
  have c0 : (((cfg1.win 7).blk t).view.emb (ix2 r q)) 0 = row128 (pt1 t) r :=
    Fin.ext (by show win1_7.index t 0 * 128 + 1 * r.val = 128 * t.val + r.val; rw [e0]; omega)
  have c1 : (((cfg1.win 7).blk t).view.emb (ix2 r q)) 1 = q :=
    Fin.ext (by show win1_7.index t 1 * 512 + 1 * q.val = q.val; rw [e1]; omega)
  refine (anorm_block (pt1 t) (iblk1 V c 0 t) (iblk1 V c 1 t) (iblk1 V c 2 t) x w1 b1 w2 b2
    (fun r q => (blk1_0 V c t r q).trans (hA _ _)) (fun r => (blk1_1 V c t r).trans (hC _))
    (fun q => (blk1_2 V c t q).trans (hR _)) r q).trans ?_
  show anorm x w1 b1 w2 b2 (row128 (pt1 t) r) q = anorm x w1 b1 w2 b2 _ _
  rw [c0, c1]

/-- An index lies in point t's block of the first output exactly when each coordinate lies in the block's range. -/
theorem mem1_7 (t : Fin cfg1.N) (i : S512x512.Idx) :
    i ∈ ((cfg1.win 7).blk t).view.set ↔
      ∀ a : Fin 2, win1_7.index t a * S128x512.size a ≤ (i a).val ∧ (i a).val < win1_7.index t a * S128x512.size a + S128x512.size a := by
  show i ∈ ((View.whole main_v20_0).slice (win1_7.rect t)).set ↔ _
  rw [View.set_slice_whole, Rect.mem_set_unit]
  exact Iff.rfl

section
variable (gw : FVec Ideal T512x32 .f32) (gb γ β : FVec Ideal T32 .f32)

/-- Point t writes back rows 128·t … 128·t + 127 of the layer's output. -/
theorem flushed1_8 (c : Dev nD)
    (hA : ∀ p q : Fin 512, (V c main_v16_0 : S512x512.Idx → EReal) (ix2 p q) = adj x w1 b1 w2 b2 p q)
    (hC : ∀ p : Fin 512, (V c main_v18 : S512x1.Idx → EReal) (ix2 p (0 : Fin 1)) = inv x w1 b1 w2 b2 p)
    (hR : ∀ q : Fin 512, (V c main_v19 : S1x512.Idx → EReal) (ix2 (0 : Fin 1) q) = inv x w1 b1 w2 b2 q)
    (hG : ∀ (j : Fin 512) (o : Fin 32), (V c main_v14 : S512x32.Idx → EReal) (ix2 j o) = fg x gw j o)
    (hgb : ∀ o : Fin 32, (V c main_v5 : S1x32.Idx → EReal) (ix2 (0 : Fin 1) o) = gb (ix1 o))
    (hγ : ∀ o : Fin 32, (V c main_v6 : S1x32.Idx → EReal) (ix2 (0 : Fin 1) o) = γ (ix1 o))
    (hβ : ∀ o : Fin 32, (V c main_v7 : S1x32.Idx → EReal) (ix2 (0 : Fin 1) o) = β (ix1 o))
    (t : Fin cfg1.N) :
    (dat1 V c).flushed 8 t = ((cfg1.win 8).blk t).view.read (Elt Ideal) (layerOut x w1 b1 w2 b2 gw gb γ β) := by
  obtain ⟨-, -, -, -, -, -, -, -, ⟨e0, e1⟩⟩ := idx1 t
  show (cfg1.win 8).cut (grid1.coords t) ((dat1 V c).after 8 t) = _
  rw [after1_8]
  unfold out1_8
  rw [View.canon_unit_zero zeros1]
  simp only [View.ld_unit_zero (S := S128x512) zeros1, View.ld_unit_zero (S := S128x1) zeros1,
    View.ld_unit_zero (S := S1x512) zeros1, View.ld_unit_zero (S := S512x32) zeros1,
    View.ld_unit_zero (S := S1x32) zeros1]
  funext y
  obtain ⟨r, o, rfl⟩ : ∃ (r : Fin 128) (o : Fin 32), y = ix2 r o := ⟨y 0, y 1, eq_ix2 y⟩
  rw [View.read_apply]
  have c0 : (((cfg1.win 8).blk t).view.emb (ix2 r o)) 0 = row128 (pt1 t) r :=
    Fin.ext (by show win1_8.index t 0 * 128 + 1 * r.val = 128 * t.val + r.val; rw [e0]; omega)
  have c1 : (((cfg1.win 8).blk t).view.emb (ix2 r o)) 1 = o :=
    Fin.ext (by show win1_8.index t 1 * 32 + 1 * o.val = o.val; rw [e1]; omega)
  refine (layer_block (pt1 t) (iblk1 V c 0 t) (iblk1 V c 1 t) (iblk1 V c 2 t) (iblk1 V c 3 t) (iblk1 V c 4 t)
    (iblk1 V c 5 t) (iblk1 V c 6 t) x w1 b1 w2 b2 gw gb γ β
    (fun r q => (blk1_0 V c t r q).trans (hA _ _)) (fun r => (blk1_1 V c t r).trans (hC _))
    (fun q => (blk1_2 V c t q).trans (hR _)) (fun j o => (blk1_3 V c t j o).trans (hG _ _))
    (fun o => (blk1_4 V c t o).trans (hgb _)) (fun o => (blk1_5 V c t o).trans (hγ _))
    (fun o => (blk1_6 V c t o).trans (hβ _)) r o).trans ?_
  show layer x w1 b1 w2 b2 gw gb γ β (row128 (pt1 t) r) o = layer x w1 b1 w2 b2 gw gb γ β _ _
  rw [c0, c1]

/-- The same for the second output. -/
theorem mem1_8 (t : Fin cfg1.N) (i : S512x32.Idx) :
    i ∈ ((cfg1.win 8).blk t).view.set ↔
      ∀ a : Fin 2, win1_8.index t a * S128x32.size a ≤ (i a).val ∧ (i a).val < win1_8.index t a * S128x32.size a + S128x32.size a := by
  show i ∈ ((View.whole main_v20_1).slice (win1_8.rect t)).set ↔ _
  rw [View.set_slice_whole, Rect.mem_set_unit]
  exact Iff.rfl

end

end

/-! ## The whole arrays -/

/-- The normalised adjacency after the four points. -/
theorem final1_7 (c : Dev nD) (x : FVec Ideal T512x512 .f32) (w1 : FVec Ideal T1024x64 .f32) (b1 : FVec Ideal T64 .f32)
    (w2 : FVec Ideal T64x1 .f32) (b2 : FVec Ideal T1 .f32)
    (hA : ∀ p q : Fin 512, (V c main_v16_0 : S512x512.Idx → EReal) (ix2 p q) = adj x w1 b1 w2 b2 p q)
    (hC : ∀ p : Fin 512, (V c main_v18 : S512x1.Idx → EReal) (ix2 p (0 : Fin 1)) = inv x w1 b1 w2 b2 p)
    (hR : ∀ q : Fin 512, (V c main_v19 : S1x512.Idx → EReal) (ix2 (0 : Fin 1) q) = inv x w1 b1 w2 b2 q) :
    (dat1 V c).arrAt 7 cfg1.N = adjOut x w1 b1 w2 b2 :=
  (dat1 V c).arrAt_eq_of_cover 7 (adjOut x w1 b1 w2 b2) (fun t _ => flushed1_7 V x w1 b1 w2 b2 c hA hC hR t) fun i => by
    have h0 : (i 0).val < 512 := (i 0).isLt
    have h1 : (i 1).val < 512 := (i 1).isLt
    let t : Fin cfg1.N := ⟨(i 0).val / 128, lt_of_lt_of_eq (show (i 0).val / 128 < 4 by omega) N_1.symm⟩
    obtain ⟨-, -, -, -, -, -, -, ⟨e0, e1⟩, -⟩ := idx1 t
    refine ⟨t, flush1_7 t, (mem1_7 t i).mpr fun a => ?_⟩
    match a with
    | ⟨0, _⟩ =>
      show win1_7.index t 0 * 128 ≤ (i 0).val ∧ (i 0).val < win1_7.index t 0 * 128 + 128
      rw [e0]
      show (i 0).val / 128 * 128 ≤ (i 0).val ∧ (i 0).val < (i 0).val / 128 * 128 + 128
      omega
    | ⟨1, _⟩ =>
      show win1_7.index t 1 * 512 ≤ (i 1).val ∧ (i 1).val < win1_7.index t 1 * 512 + 512
      rw [e1]
      omega

/-- The layer's output after the four points. -/
theorem final1_8 (c : Dev nD) (x : FVec Ideal T512x512 .f32) (w1 : FVec Ideal T1024x64 .f32) (b1 : FVec Ideal T64 .f32)
    (w2 : FVec Ideal T64x1 .f32) (b2 : FVec Ideal T1 .f32) (gw : FVec Ideal T512x32 .f32) (gb γ β : FVec Ideal T32 .f32)
    (hA : ∀ p q : Fin 512, (V c main_v16_0 : S512x512.Idx → EReal) (ix2 p q) = adj x w1 b1 w2 b2 p q)
    (hC : ∀ p : Fin 512, (V c main_v18 : S512x1.Idx → EReal) (ix2 p (0 : Fin 1)) = inv x w1 b1 w2 b2 p)
    (hR : ∀ q : Fin 512, (V c main_v19 : S1x512.Idx → EReal) (ix2 (0 : Fin 1) q) = inv x w1 b1 w2 b2 q)
    (hG : ∀ (j : Fin 512) (o : Fin 32), (V c main_v14 : S512x32.Idx → EReal) (ix2 j o) = fg x gw j o)
    (hgb : ∀ o : Fin 32, (V c main_v5 : S1x32.Idx → EReal) (ix2 (0 : Fin 1) o) = gb (ix1 o))
    (hγ : ∀ o : Fin 32, (V c main_v6 : S1x32.Idx → EReal) (ix2 (0 : Fin 1) o) = γ (ix1 o))
    (hβ : ∀ o : Fin 32, (V c main_v7 : S1x32.Idx → EReal) (ix2 (0 : Fin 1) o) = β (ix1 o)) :
    (dat1 V c).arrAt 8 cfg1.N = layerOut x w1 b1 w2 b2 gw gb γ β :=
  (dat1 V c).arrAt_eq_of_cover 8 (layerOut x w1 b1 w2 b2 gw gb γ β)
    (fun t _ => flushed1_8 V x w1 b1 w2 b2 gw gb γ β c hA hC hR hG hgb hγ hβ t) fun i => by
    have h0 : (i 0).val < 512 := (i 0).isLt
    have h1 : (i 1).val < 32 := (i 1).isLt
    let t : Fin cfg1.N := ⟨(i 0).val / 128, lt_of_lt_of_eq (show (i 0).val / 128 < 4 by omega) N_1.symm⟩
    obtain ⟨-, -, -, -, -, -, -, -, ⟨e0, e1⟩⟩ := idx1 t
    refine ⟨t, flush1_8 t, (mem1_8 t i).mpr fun a => ?_⟩
    match a with
    | ⟨0, _⟩ =>
      show win1_8.index t 0 * 128 ≤ (i 0).val ∧ (i 0).val < win1_8.index t 0 * 128 + 128
      rw [e0]
      show (i 0).val / 128 * 128 ≤ (i 0).val ∧ (i 0).val < (i 0).val / 128 * 128 + 128
      omega
    | ⟨1, _⟩ =>
      show win1_8.index t 1 * 32 ≤ (i 1).val ∧ (i 1).val < win1_8.index t 1 * 32 + 32
      rw [e1]
      omega

end Cert.KernelIdeal.Blocks

end
-- ==== Proof.KernelValue.lean ====
/- The kernel program's two results as functions of its arguments.
   The buffer contents at the four segment boundaries are read one after the other: after the first host operations the
   adjacency kernel finds x · W1a (transposed), x · W1b and the small operands; it leaves the adjacency and the degree
   column; the host operations between the kernels leave the reciprocal degrees as a column and as a row; the second kernel
   finds these, the adjacency, x · G and the layer's three vectors, and leaves the normalised adjacency and the layer's
   output. -/
import proofs.«138939_j55310588838066_2_alg».proof.Proof.KernelRun
import proofs.«138939_j55310588838066_2_alg».proof.Proof.HostStages
import proofs.«138939_j55310588838066_2_alg».proof.Proof.Region0
import proofs.«138939_j55310588838066_2_alg».proof.Proof.Region1
import proofs.«138939_j55310588838066_2_alg».proof.Proof.Spec

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.GenP Cert.GraphSpec Cert.KernelIdeal.Stages

variable (m : (ℓ : Loc nD τ sig) → Buf (Elt Ideal) ℓ) (ρ : Dev nD → PrngReg)

/-- After the adjacency kernel its first output buffer holds the adjacency … -/
theorem W2_adj (c : Dev nD) :
    (W2 m ρ c (Proc.devRef .tc main_v16_0) : S512x512.Idx → EReal)
      = Blocks.adjArr (aX m c) (aW1 m c) (aB1 m c) (aW2 m c) (aB2 m c) :=
  (W2_arr m ρ c 5).trans (Blocks.final0_5 (V1 m ρ) c (aX m c) (aW1 m c) (aB1 m c) (aW2 m c) (aB2 m c)
    (V1_v15 m ρ c) (V1_v12 m ρ c) (V1_v2 m ρ c) (V1_v3 m ρ c) (V1_v4 m ρ c))

/-- … and its second the degree column. -/
theorem W2_deg (c : Dev nD) :
    (W2 m ρ c (Proc.devRef .tc main_v16_1) : S512x1.Idx → EReal)
      = Blocks.degArr (aX m c) (aW1 m c) (aB1 m c) (aW2 m c) (aB2 m c) :=
  (W2_arr m ρ c 6).trans (Blocks.final0_6 (V1 m ρ) c (aX m c) (aW1 m c) (aB1 m c) (aW2 m c) (aB2 m c)
    (V1_v15 m ρ c) (V1_v12 m ρ c) (V1_v2 m ρ c) (V1_v3 m ρ c) (V1_v4 m ρ c))

/-- What the second kernel finds: the adjacency, -/
theorem V3_adj (c : Dev nD) (p q : Fin 512) :
    (V3 m ρ c main_v16_0 : S512x512.Idx → EReal) (ix2 p q) = adj (aX m c) (aW1 m c) (aB1 m c) (aW2 m c) (aB2 m c) p q := by
  rw [V3_v16_0, W2_adj]

/-- the reciprocal degrees as a column, -/
theorem V3_col (c : Dev nD) (p : Fin 512) :
    (V3 m ρ c main_v18 : S512x1.Idx → EReal) (ix2 p (0 : Fin 1)) = inv (aX m c) (aW1 m c) (aB1 m c) (aW2 m c) (aB2 m c) p := by
  rw [V3_v18, W2_deg]; rfl

/-- and as a row. -/
theorem V3_row (c : Dev nD) (q : Fin 512) :
    (V3 m ρ c main_v19 : S1x512.Idx → EReal) (ix2 (0 : Fin 1) q) = inv (aX m c) (aW1 m c) (aB1 m c) (aW2 m c) (aB2 m c) q := by
  rw [V3_v19, W2_deg]; rfl

/-- The second result buffer ends holding the normalised adjacency. -/
theorem res_adj (c : Dev nD) :
    W4 m ρ c (Proc.devRef .tc main_v20_0) = adjOut (aX m c) (aW1 m c) (aB1 m c) (aW2 m c) (aB2 m c) :=
  (W4_arr m ρ c 7).trans (Blocks.final1_7 (V3 m ρ) c (aX m c) (aW1 m c) (aB1 m c) (aW2 m c) (aB2 m c)
    (V3_adj m ρ c) (V3_col m ρ c) (V3_row m ρ c))

/-- The first result buffer ends holding the layer's output. -/
theorem res_layer (c : Dev nD) :
    W4 m ρ c (Proc.devRef .tc main_v20_1)
      = layerOut (aX m c) (aW1 m c) (aB1 m c) (aW2 m c) (aB2 m c) (aGW m c) (aGB m c) (aGa m c) (aBe m c) :=
  (W4_arr m ρ c 8).trans (Blocks.final1_8 (V3 m ρ) c (aX m c) (aW1 m c) (aB1 m c) (aW2 m c) (aB2 m c) (aGW m c) (aGB m c) (aGa m c) (aBe m c)
    (V3_adj m ρ c) (V3_col m ρ c) (V3_row m ρ c)
    (fun j o => by rw [V3_v14]; exact V1_v14 m ρ c j o)
    (fun o => by rw [V3_v5]; exact V1_v5 m ρ c o)
    (fun o => by rw [V3_v6]; exact V1_v6 m ρ c o)
    (fun o => by rw [V3_v7]; exact V1_v7 m ρ c o))

/-- Every weakly fair execution of the kernel program ends with the layer's output and the normalised adjacency in its two
    result buffers, as the specification's functions of the launch arguments, and with the arguments unchanged. -/
theorem run : θ_run (defs (F := Ideal)) (onTc (τ := τ) (main (F := Ideal))) ⟨m, fun _ => 0, ρ⟩ (fun r => ∀ c : Dev nD,
      r.2.mem ((c.tc : Thread nD τ).loc main_v20_1)
        = layerOut (aX m c) (aW1 m c) (aB1 m c) (aW2 m c) (aB2 m c) (aGW m c) (aGB m c) (aGa m c) (aBe m c)
      ∧ r.2.mem ((c.tc : Thread nD τ).loc main_v20_0) = adjOut (aX m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (res_layer m ρ c), (h c).2.1.trans (res_adj m ρ c), (h c).2.2⟩)
    (Cert.KernelIdeal.RunValue.run_values m ρ)

end Cert.KernelIdeal.KValue

end
-- ==== Proof.RefValue.lean ====
/- What the reference program computes, read one element at a time, and why that is the specification.

   The reference builds, for every ordered pair (i, j) of the 512 nodes, the 1024-vector [x j, x i] (a concatenation of two
   broadcasts of the feature matrix), multiplies it by W1, adds b1 and rectifies; a second product with w2 plus the scalar
   b2 is the logit, and  1 / (1 + exp (-logit))  the logistic value. To this it adds the identity matrix, written as the
   comparison of a row counter with a column counter turned into a number; sums the rows, adds one and takes the square
   root for the degrees; divides each entry by the product of its two degrees; and applies one graph-convolution layer.

   Laws used: a concatenation along an axis reads its first piece below the first extent and its second piece above it,
   so the 1024-term product splits into the two 512-term products  fa j h + fb i h  (sum_split_1024); the float patterns
   of 0 and 1 are the reals 0 and 1;  1 / (1 + exp (-v))  is the logistic function by its definition; two counters below
   512 are equal as 32-bit words exactly when they are equal; a sum started at 0 is the sum; and dividing by the product of
   two positive real degrees is multiplying by their two reciprocals (anorm_eq_div). -/
import proofs.«138939_j55310588838066_2_alg».proof.Proof.Gen.ReferenceIdeal.Read
import proofs.«138939_j55310588838066_2_alg».proof.Proof.Spec

noncomputable section

open scoped BigOperators
open Idealize.ShloMosaic Idealize.ShloMosaic.ValueIdx Cert.ReferenceIdeal Cert.ReferenceIdeal.Gen Cert.ReferenceIdeal.Read Cert.GraphSpec

namespace Cert.ReferenceIdeal.RefValue

/-! ## Indices from their coordinates -/

/-- A rank-2 index with known coordinates. -/
theorem idx2_eq {n0 n1 : Nat} (p : (⟨2, ![n0, n1]⟩ : Shape).Idx) (a : Fin n0) (b : Fin n1) (h0 : p 0 = a) (h1 : p 1 = b) :
    p = ix2 a b := by
  subst h0 h1; exact eq_ix2 p

/-- A rank-3 index with known coordinates. -/
theorem idx3_eq {n0 n1 n2 : Nat} (p : (⟨3, ![n0, n1, n2]⟩ : Shape).Idx) (a : Fin n0) (b : Fin n1) (c : Fin n2)
    (h0 : p 0 = a) (h1 : p 1 = b) (h2 : p 2 = c) : p = ix3 a b c := by
  subst h0 h1 h2; exact eq_ix3 p

/-- A rank-1 index with a known coordinate. -/
theorem idx1_eq {n : Nat} (p : (⟨1, ![n]⟩ : Shape).Idx) (a : Fin n) (h0 : p 0 = a) : p = ix1 a := by
  subst h0; exact eq_ix1 p

/-! ## The pair array and the hidden layer -/

section
variable (x0 : FVec Ideal S512x512 .f32) (x1 : FVec Ideal S1024x64 .f32) (x2 : FVec Ideal S64 .f32)
  (x3 : FVec Ideal S64x1 .f32) (x4 : FVec Ideal S1 .f32)

/-- The first broadcast of the features: entry (i, j, k) is x j k. -/
theorem v1_at (i j k : Fin 512) : val_main_v1 (F := Ideal) x0 (ix3 i j k) = x0 (ix2 j k) := by
  rw [val_main_v1_apply, val_main_v0_apply]
  exact congrArg x0 (idx2_eq _ _ _ rfl rfl)

/-- The second broadcast of the features: entry (i, j, k) is x i k. -/
theorem v3_at (i j k : Fin 512) : val_main_v3 (F := Ideal) x0 (ix3 i j k) = x0 (ix2 i k) := by
  rw [val_main_v3_apply, val_main_v2_apply]
  exact congrArg x0 (idx2_eq _ _ _ rfl rfl)

/-- The pair array below column 512 is x j. -/
theorem v4_lo (i j k : Fin 512) : val_main_v4 (F := Ideal) x0 (ix3 i j (lo k)) = x0 (ix2 j k) := by
  unfold val_main_v4
  refine (concatenate_pair_apply_left 2 (val_main_v1 (F := Ideal) x0) (val_main_v3 (F := Ideal) x0)
    concatenates_S512x512x512_S512x512x512_S512x512x1024_d2 (ix3 i j (lo k)) rfl (ix3 i j k) (fun b => by
      match b with
      | ⟨0, _⟩ => rfl
      | ⟨1, _⟩ => rfl
      | ⟨2, _⟩ => rfl)).trans ?_
  exact v1_at x0 i j k

/-- The pair array from column 512 on is x i. -/
theorem v4_hi (i j k : Fin 512) : val_main_v4 (F := Ideal) x0 (ix3 i j (hi k)) = x0 (ix2 i k) := by
  unfold val_main_v4
  refine (concatenate_pair_apply_right 2 (val_main_v1 (F := Ideal) x0) (val_main_v3 (F := Ideal) x0)
    concatenates_S512x512x512_S512x512x512_S512x512x1024_d2 (ix3 i j (hi k)) rfl rfl (ix3 i j k) (fun b hb => by
      match b with
      | ⟨0, _⟩ => rfl
      | ⟨1, _⟩ => rfl
      | ⟨2, _⟩ => exact absurd rfl hb) ?_).trans ?_
  · show k.val + 512 = 512 + k.val
    omega
  · exact v3_at x0 i j k

/-- The first product: the 1024-term sum splits into the two 512-term sums. -/
theorem v5_at (i j : Fin 512) (h : Fin 64) :
    val_main_v5 (F := Ideal) x0 x1 (ix3 i j h) = fa x0 x1 j h + fb x0 x1 i h := by
  rw [val_main_v5_apply]
  have e : ∀ k : Fin 1024, val_main_v4 (F := Ideal) x0 (lidx_main_v5 (ix3 i j h) k) * x1 (ridx_main_v5 (ix3 i j h) k)
      = val_main_v4 (F := Ideal) x0 (ix3 i j k) * x1 (ix2 k h) := fun k => by
    rw [idx3_eq (lidx_main_v5 (ix3 i j h) k) i j k rfl rfl rfl, idx2_eq (ridx_main_v5 (ix3 i j h) k) k h rfl rfl]
  rw [Finset.sum_congr rfl fun k _ => e k, sum_split_1024]
  unfold fa fb
  refine congrArg₂ (· + ·) (Finset.sum_congr rfl fun k _ => ?_) (Finset.sum_congr rfl fun k _ => ?_)
  · exact congrArg (· * _) (v4_lo x0 i j k)
  · exact congrArg (· * _) (v4_hi x0 i j k)

/-- The hidden layer. -/
theorem v9_at (i j : Fin 512) (h : Fin 64) :
    val_main_v9 (F := Ideal) x0 x1 x2 (ix3 i j h) = max (fa x0 x1 j h + fb x0 x1 i h + x2 (ix1 h)) 0 := by
  rw [val_main_v9_apply, val_main_v8_apply, v5_at, val_main_v7_apply, val_main_v6_apply, val_main_call0_v0_apply,
    val_main_call0_cst_apply]
  rw [idx1_eq (idx_main_v6 (idx_main_v7 (ix3 i j h))) h rfl]
  show max (fa x0 x1 j h + fb x0 x1 i h + x2 (ix1 h)) (Ideal.ofBits .f32 0x00000000#32) = _
  rw [Ideal.ofBits_zero_f32]

/-! ## The logit and the logistic value -/

/-- The second product. -/
theorem v10_at (i j : Fin 512) :
    val_main_v10 (F := Ideal) x0 x1 x2 x3 (ix3 i j (0 : Fin 1))
      = ∑ h : Fin 64, max (fa x0 x1 j h + fb x0 x1 i h + x2 (ix1 h)) 0 * x3 (ix2 h 0) := by
  rw [val_main_v10_apply]
  refine Finset.sum_congr rfl fun h _ => ?_
  rw [idx3_eq (lidx_main_v10 (ix3 i j (0 : Fin 1)) h) i j h rfl rfl rfl,
    idx2_eq (ridx_main_v10 (ix3 i j (0 : Fin 1)) h) h (0 : Fin 1) rfl rfl, v9_at]

/-- The bias b2, a one-element array read as a scalar and broadcast, is b2 0 everywhere. -/
theorem v13_at (i j : Fin 512) : val_main_v13 (F := Ideal) x4 (ix2 i j) = x4 (ix1 0) := by
  rw [val_main_v13_apply]
  unfold val_main_v12
  refine (shapeCast_dropUnit_apply ![] x4 shapeCasts_S1_S_ _).trans ?_
  exact congrArg x4 (idx1_eq _ _ rfl)

/-- The logit. -/
theorem v14_at (i j : Fin 512) : val_main_v14 (F := Ideal) x0 x1 x2 x3 x4 (ix2 i j) = logit x0 x1 x2 x3 x4 i j := by
  rw [val_main_v14_apply, val_main_v11_apply, v13_at]
  have e : idx_main_v11 (ix2 i j) = ix3 i j (0 : Fin 1) := by
    have hi := i.isLt
    have hj := j.isLt
    refine idx3_eq _ _ _ _ (Fin.ext ?_) (Fin.ext ?_) rfl
    · show (i.val * 512 + j.val) / 512 = i.val
      omega
    · show (i.val * 512 + j.val) / 1 % 512 = j.val
      omega
  rw [e, v10_at]
  rfl

/-- 1 / (1 + exp (-logit)) is the logistic value. -/
theorem v20_at (i j : Fin 512) :
    val_main_v20 (F := Ideal) x0 x1 x2 x3 x4 (ix2 i j) = Ideal.logistic (logit x0 x1 x2 x3 x4 i j) := by
  rw [val_main_v20_apply, val_main_v19_apply, val_main_cst_0_apply, val_main_v18_apply, val_main_v17_apply,
    val_main_cst_apply, val_main_v16_apply, val_main_v15_apply, v14_at]
  show Ideal.div (Ideal.ofBits .f32 0x3F800000#32)
    (Ideal.ofBits .f32 0x3F800000#32 + Ideal.exp (-(logit x0 x1 x2 x3 x4 i j))) = _
  rw [ofBits_one_f32]
  rfl

/-! ## The identity matrix, the adjacency and the degrees -/

/-- Two counters below 512 compared as 32-bit words, the bit read as a number: the identity matrix. -/
theorem eye_word (i j : Fin 512) :
    (FloatOps.uitofp (F := Ideal) .f32
        (IntOp.cmpi .eq (IntOp.addi (BitVec.ofNat 32 i.val) 0#32) (BitVec.ofNat 32 j.val)) : EReal)
      = if i = j then 1 else 0 := by
  have hadd : IntOp.addi (BitVec.ofNat 32 i.val) 0#32 = BitVec.ofNat 32 i.val := by
    unfold IntOp.addi; exact BitVec.add_zero _
  rw [hadd]
  show (((IntOp.cmpi .eq (BitVec.ofNat 32 i.val) (BitVec.ofNat 32 j.val)).toNat : ℝ) : EReal) = _
  by_cases hij : i = j
  · subst hij
    rw [if_pos rfl]
    have hb : IntOp.cmpi .eq (BitVec.ofNat 32 i.val) (BitVec.ofNat 32 i.val) = 1#1 := by
      unfold IntOp.cmpi; simp
    rw [hb]; simp
  · rw [if_neg hij]
    have hne : BitVec.ofNat 32 i.val ≠ BitVec.ofNat 32 j.val := by
      intro h
      have ht := congrArg BitVec.toNat h
      have hi := i.isLt
      have hj := j.isLt
      rw [BitVec.toNat_ofNat, BitVec.toNat_ofNat, Nat.mod_eq_of_lt (by omega), Nat.mod_eq_of_lt (by omega)] at ht
      exact hij (Fin.ext ht)
    have hb : IntOp.cmpi .eq (BitVec.ofNat 32 i.val) (BitVec.ofNat 32 j.val) = 0#1 := by
      unfold IntOp.cmpi
      show BitVec.ofBool (BitVec.ofNat 32 i.val == BitVec.ofNat 32 j.val) = 0#1
      rw [beq_eq_false_iff_ne.mpr hne]
      rfl
    rw [hb]; simp

theorem v26_at (i j : Fin 512) : val_main_v26 (F := Ideal) (ix2 i j) = if i = j then (1 : EReal) else 0 := by
  rw [val_main_v26_apply, val_main_v25_apply, val_main_v24_apply, val_main_v23_apply, val_main_c_apply,
    val_main_v22_apply, val_main_v21_apply]
  exact eye_word i j

/-- The adjacency with self-loops. -/
theorem v27_at (i j : Fin 512) : val_main_v27 (F := Ideal) x0 x1 x2 x3 x4 (ix2 i j) = adj x0 x1 x2 x3 x4 i j := by
  rw [val_main_v27_apply, v26_at, v20_at]
  rfl

/-- The degree: the row sum from 0, plus 1, under the square root. -/
theorem v31_at (i : Fin 512) : val_main_v31 (F := Ideal) x0 x1 x2 x3 x4 (ix1 i) = deg x0 x1 x2 x3 x4 i := by
  rw [val_main_v31_apply, val_main_v30_apply, val_main_v29_apply, val_main_cst_2_apply, val_main_v28_apply,
    val_main_cst_1_apply]
  have e : ∀ k : Fin 512, val_main_v27 (F := Ideal) x0 x1 x2 x3 x4 (idx_main_v28 (ix1 i) k) = adj x0 x1 x2 x3 x4 i k :=
    fun k => by rw [idx2_eq (idx_main_v28 (ix1 i) k) i k rfl rfl, v27_at]
  rw [Finset.sum_congr rfl fun k _ => e k]
  show Ideal.sqrt (Ideal.ofBits .f32 0x00000000#32 + (∑ k : Fin 512, adj x0 x1 x2 x3 x4 i k)
    + Ideal.ofBits .f32 0x3F800000#32) = _
  rw [Ideal.ofBits_zero_f32, zero_add, ofBits_one_f32]
  rfl

/-- The normalised adjacency as the reference writes it: a quotient by the product of the two degrees. -/
theorem v37_at (i j : Fin 512) : val_main_v37 (F := Ideal) x0 x1 x2 x3 x4 (ix2 i j) = anorm x0 x1 x2 x3 x4 i j := by
  rw [val_main_v37_apply, v27_at, val_main_v36_apply, val_main_v34_apply, val_main_v32_apply, val_main_v35_apply,
    val_main_v33_apply]
  rw [idx1_eq (idx_main_v32 (idx_main_v34 (ix2 i j))) i rfl, idx1_eq (idx_main_v33 (idx_main_v35 (ix2 i j))) j rfl,
    v31_at, v31_at]
  exact (anorm_eq_div x0 x1 x2 x3 x4 i j).symm

theorem adj_ref : val_main_v37 (F := Ideal) x0 x1 x2 x3 x4 = adjOut x0 x1 x2 x3 x4 := by
  funext p
  obtain ⟨i, j, rfl⟩ : ∃ i j, p = ix2 i j := ⟨p 0, p 1, eq_ix2 p⟩
  exact v37_at x0 x1 x2 x3 x4 i j

/-! ## The graph-convolution layer -/

section
variable (x5 : FVec Ideal S512x32 .f32) (x6 x7 x8 : FVec Ideal S32 .f32)

/-- x · G. -/
theorem v38_at (j : Fin 512) (o : Fin 32) : val_main_v38 (F := Ideal) x0 x5 (ix2 j o) = fg x0 x5 j o := by
  rw [val_main_v38_apply]
  unfold fg
  refine Finset.sum_congr rfl fun l _ => ?_
  rw [idx2_eq (lidx_main_v38 (ix2 j o) l) j l rfl rfl, idx2_eq (ridx_main_v38 (ix2 j o) l) l o rfl rfl]

/-- The normalised adjacency times x · G. -/
theorem v39_at (i : Fin 512) (o : Fin 32) :
    val_main_v39 (F := Ideal) x0 x1 x2 x3 x4 x5 (ix2 i o)
      = ∑ j : Fin 512, anorm x0 x1 x2 x3 x4 i j * fg x0 x5 j o := by
  rw [val_main_v39_apply]
  refine Finset.sum_congr rfl fun j _ => ?_
  rw [idx2_eq (lidx_main_v39 (ix2 i o) j) i j rfl rfl, idx2_eq (ridx_main_v39 (ix2 i o) j) j o rfl rfl, v37_at, v38_at]

/-- A 32-vector broadcast down the rows. -/
theorem v41_at (i : Fin 512) (o : Fin 32) : val_main_v41 (F := Ideal) x6 (ix2 i o) = x6 (ix1 o) := by
  rw [val_main_v41_apply, val_main_v40_apply]
  exact congrArg x6 (idx1_eq _ _ rfl)

theorem v44_at (i : Fin 512) (o : Fin 32) : val_main_v44 (F := Ideal) x7 (ix2 i o) = x7 (ix1 o) := by
  rw [val_main_v44_apply, val_main_v43_apply]
  exact congrArg x7 (idx1_eq _ _ rfl)

theorem v49_at (i : Fin 512) (o : Fin 32) : val_main_v49 (F := Ideal) x8 (ix2 i o) = x8 (ix1 o) := by
  rw [val_main_v49_apply, val_main_v48_apply]
  exact congrArg x8 (idx1_eq _ _ rfl)

/-- The layer's output. -/
theorem v51_at (i : Fin 512) (o : Fin 32) :
    val_main_v51 (F := Ideal) x0 x1 x2 x3 x4 x5 x6 x7 x8 (ix2 i o) = layer x0 x1 x2 x3 x4 x5 x6 x7 x8 i o := by
  rw [val_main_v51_apply, val_main_v50_apply, val_main_v47_apply, val_main_v45_apply, val_main_v42_apply, v39_at, v41_at,
    v44_at, v49_at, val_main_v46_apply, val_main_cst_3_apply, val_main_call1_v0_apply, val_main_call1_cst_apply]
  show max (x7 (ix1 o) * ((∑ j : Fin 512, anorm x0 x1 x2 x3 x4 i j * fg x0 x5 j o) + x6 (ix1 o))
    * Ideal.ofBits .f32 0x3F7FFFAC#32 + x8 (ix1 o)) (Ideal.ofBits .f32 0x00000000#32) = _
  rw [Ideal.ofBits_zero_f32]
  rfl

theorem layer_ref :
    val_main_v51 (F := Ideal) x0 x1 x2 x3 x4 x5 x6 x7 x8 = layerOut x0 x1 x2 x3 x4 x5 x6 x7 x8 := by
  funext p
  obtain ⟨i, o, rfl⟩ : ∃ i o, p = ix2 i o := ⟨p 0, p 1, eq_ix2 p⟩
  exact v51_at x0 x1 x2 x3 x4 x5 x6 x7 x8 i o

end

end

end Cert.ReferenceIdeal.RefValue

end
-- ==== Proof.Algebraic.lean ====
/- The two programs compute the same two arrays over the extended reals.

   From memories that agree on the nine arguments, the kernel program ends with the layer's output and the normalised
   adjacency of the specification in its two result buffers, and the reference ends with its own two result terms, which are
   the same two functions of the specification read at the reference's arguments. The arguments agree, so the results are
   equal; both programs leave their arguments unchanged. -/
import proofs.«138939_j55310588838066_2_alg».proof.Defs
import proofs.«138939_j55310588838066_2_alg».proof.Proof.Gen.Kernel
import proofs.«138939_j55310588838066_2_alg».proof.Proof.Gen.KernelIdeal
import proofs.«138939_j55310588838066_2_alg».proof.Proof.Gen.ReferenceIdeal
import proofs.«138939_j55310588838066_2_alg».proof.Proof.Gen.Pre_finite_inputs
import proofs.«138939_j55310588838066_2_alg».proof.Proof.KernelValue
import proofs.«138939_j55310588838066_2_alg».proof.Proof.Gen.ReferenceIdeal.Run
import proofs.«138939_j55310588838066_2_alg».proof.Proof.Gen.ReferenceIdeal.Read
import proofs.«138939_j55310588838066_2_alg».proof.Proof.RefValue

noncomputable section

open Idealize.ShloMosaic Idealize.ShloMosaic.TcCoe Idealize.SL.Sem

namespace Cert.Proof.Alg

open Cert.GraphSpec Cert.KernelIdeal.Stages

/-- From memories agreeing on the arguments both programs run, end with equal results — the layer's output and the
    normalised adjacency of the kernel program's arguments — and leave their arguments unchanged. -/
theorem algebraic : Cert.algebraic_KernelIdeal_ReferenceIdeal := by
  intro m ρ m' ρ' _ hagree
  refine ⟨fun c => layerOut (aX m c) (aW1 m c) (aB1 m c) (aW2 m c) (aB2 m c) (aGW m c) (aGB m c) (aGa m c) (aBe m c),
    fun c => adjOut (aX m c) (aW1 m c) (aB1 m c) (aW2 m c) (aB2 m c), Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8⟩ := hagree c
    rw [Cert.ReferenceIdeal.Read.val_main_v51_eq, Cert.ReferenceIdeal.RefValue.layer_ref, e0, e1, e2, e3, e4, e5, e6, e7, e8]
  · obtain ⟨e0, e1, e2, e3, e4, _⟩ := hagree c
    rw [Cert.ReferenceIdeal.Read.val_main_v37_eq, Cert.ReferenceIdeal.RefValue.adj_ref, e0, e1, e2, e3, e4]

end Cert.Proof.Alg

end
-- ==== Proof.lean ====
/- A pair-scoring graph layer, kernel against reference, over the extended reals.

   512 nodes carry features x (512 × 512). A relation network scores every ordered pair (i, j) from [x j, x i] through a
   first layer W1 (1024 × 64) with bias b1 and a rectifier, and a second layer w2 with bias b2 and the logistic function;
   the adjacency is A = I + scores, its degree vector d i = sqrt (∑ j, A i j + 1), the normalised adjacency
   A i j / (d i · d j), and one graph-convolution layer with an affine map and a rectifier follows.

   The reference builds the 512 × 512 × 1024 array of concatenated pairs and contracts it with W1; the kernel program
   multiplies x by the two halves of W1 once (a 1024-term sum split into two 512-term sums), adds the two products pair by
   pair inside a first kernel that also forms A and d row tile by row tile, takes the reciprocals 1 / d on the host, and
   in a second kernel multiplies A by the two reciprocals and runs the layer. The two arrangements are one function of the
   arguments: sums over the extended reals may be split and regrouped freely, a change of float format is the identity,
   the logistic function spelt out as 1 / (1 + exp (-v)) is the logistic function, and — since every logistic value is a
   real in [0, 1] whatever its argument, so that every degree is a positive real — a / (d · e) = a · (1/d) · (1/e).
   The finiteness of the inputs is never used.

   The modules: Spec (the mathematics), RefValue (the reference's two results are the specification), Payload0 /
   Payload1 (what each kernel body computes at one entry of its blocks), HostStages (the host operations around the kernels,
   entry by entry), Region0 / Region1 (from one grid point's block to the whole output arrays), KernelRun and KernelValue (the
   kernel program's run with its results named), Algebraic (the two runs side by side). -/
import proofs.«138939_j55310588838066_2_alg».proof.Defs
import proofs.«138939_j55310588838066_2_alg».proof.Proof.Gen.Kernel
import proofs.«138939_j55310588838066_2_alg».proof.Proof.KernelFrame
import proofs.«138939_j55310588838066_2_alg».proof.Proof.Gen.KernelIdeal
import proofs.«138939_j55310588838066_2_alg».proof.Proof.KernelIdealFrame
import proofs.«138939_j55310588838066_2_alg».proof.Proof.Gen.ReferenceIdeal
import proofs.«138939_j55310588838066_2_alg».proof.Proof.Gen.ReferenceIdeal.Run
import proofs.«138939_j55310588838066_2_alg».proof.Proof.Gen.Pre_finite_inputs
import proofs.«138939_j55310588838066_2_alg».proof.Proof.Algebraic
import Idealize.ShloMosaic.Adequacy
import Idealize.ShloMosaic.Init

noncomputable section

namespace Cert.Proof

open Idealize.ShloMosaic Idealize.SL.Sem

/-- The printed kernel program runs and leaves its arguments as launched. -/
theorem frame_k : Cert.frame_Kernel := fun m ρ _ => Cert.Kernel.GenP.frame m ρ
/-- So does its reading over the extended reals. -/
theorem frame_ki : Cert.frame_KernelIdeal := fun m ρ _ => Cert.KernelIdeal.GenP.frame m ρ
/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The five claims; the idealization rewrote nothing, so its conjunct is trivial. -/
theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Alg.algebraic⟩

end Cert.Proof

end
